-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S512x1024 .f32
  ∧ IdealRules.sign_bit.Statement Cert.KernelIdeal.S512x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S1024 .f32) (main_arg2 : FVec F S1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S1024 : Shape := ⟨1, ![1024]⟩
abbrev S1x512x1024 : Shape := ⟨3, ![1, 512, 1024]⟩
abbrev S512x1024 : Shape := ⟨2, ![512, 1024]⟩
abbrev S1x1024 : Shape := ⟨2, ![1, 1024]⟩
abbrev S512x512 : Shape := ⟨2, ![512, 512]⟩
abbrev S512x1 : Shape := ⟨2, ![512, 1]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1x512x1024, .f32⟩
  | .local _ .vmem, ⟨8, _⟩ => ⟨S1x512x1024, .f32⟩
  | .local _ .vmem, ⟨9, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let arg1 : BitVec 32 := BitVec.ofNat 32 (i 1).val
  let v3 : BitVec 1 := Scalar.cmpi .sle arg2 arg1
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x2048x1024.size a
  hwx0_1 : ∀ i : grid0.Coords, EltTy.bits .f32 = 32 ∨ (Rect.block (s := S4x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .f32 = 32 ∨ (Rect.block (s := S4x2048x1024) S1x512x1024.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S2048x2048 : Shape := ⟨2, ![2048, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x2048, .f32⟩
  | .hbm, ⟨29, _⟩ => ⟨S_, .f32⟩
  | .hbm, ⟨30, _⟩ => ⟨S4x2048x2048, .f32⟩
  | .hbm, ⟨31, _⟩ => ⟨S4x2048x2048, .f32⟩
  | .hbm, ⟨32, _⟩ => ⟨S_, .i1⟩
  | .hbm, ⟨33, _⟩ => ⟨S2048x2048, .i1⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .i1⟩
  | .hbm, ⟨41, _⟩ => ⟨S2048x2048, .i1⟩
  | .hbm, ⟨42, _⟩ => ⟨S2048x2048, .i1⟩
  | .hbm, ⟨43, _⟩ => ⟨S_, .f32⟩
  | .hbm, ⟨44, _⟩ => ⟨S_, .f32⟩
  | .hbm, ⟨45, _⟩ => ⟨S4x2048x2048, .i1⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048x2048, .f32⟩
  | .hbm, ⟨58, _⟩ => ⟨S4x2048x2048, .f32⟩
  | .hbm, ⟨59, _⟩ => ⟨S_, .f32⟩
  | .hbm, ⟨60, _⟩ => ⟨S_, .f32⟩
  | .hbm, ⟨61, _⟩ => ⟨S4x2048x2048, .i1⟩
  | .hbm, ⟨62, _⟩ => ⟨S4x2048x2048, .f32⟩
  | .hbm, ⟨63, _⟩ => ⟨S4x2048x2048, .f32⟩
  | .hbm, ⟨64, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_0 : Ref sig .tc := ⟨.hbm, 40, rfl⟩
abbrev main_call0_v5 : Ref sig .tc := ⟨.hbm, 41, rfl⟩
abbrev main_v28 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.WordFrame.Entry.lean ====
/-
  The causal binary-attention kernel, as printed (word level): what its region finds on entry, and which of its two
  conditionals a grid point takes.

  The grid is (batch b, query tile qi, key tile ki) = 4 × 4 × 4, the point t = 16·b + 4·qi + ki. The first
  conditional (ki = 0) zeroes the output tile and stores the query signs into the scratch buffer; the second
  (ki ≤ qi) adds one key tile's contribution to the output tile. So a point is of one of three kinds: FIRST
  (ki = 0: both taken), LIVE (0 < ki ≤ qi: the second only), DEAD (qi < ki: neither). Before the region the host
  takes the signs of the three bias vectors; the region's six windows are two on the SAME array x (the query
  tile and the key tile), the three sign vectors, and the result.
-/
import proofs.«105131_j59863254172674_2_alg».proof.Proof.Gen.Kernel.Launch
import proofs.«105131_j59863254172674_2_alg».proof.Proof.Gen.Kernel.Skeleton
import proofs.«105131_j59863254172674_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the three host sign operations, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host sign operations allocate nothing. -/
theorem hostOps0_fresh : (hostOps0 : List (HloOp τ sig (Elt F))).Forall fun op => op.fresh = ∅ := by
  simp only [List.Forall]; repeat' constructor

/-- @main is the three host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write their own results only: the argument arrays are as at launch. -/
theorem V_main_arg0 (c : Dev nD) : V m c main_arg0 = m ((c : Thread nD τ).loc main_arg0) := by
  dsimp only [V, V0, hostOps0]; after_results
theorem V_main_arg1 (c : Dev nD) : V m c main_arg1 = m ((c : Thread nD τ).loc main_arg1) := by
  dsimp only [V, V0, hostOps0]; after_results
theorem V_main_arg2 (c : Dev nD) : V m c main_arg2 = m ((c : Thread nD τ).loc main_arg2) := by
  dsimp only [V, V0, hostOps0]; after_results
theorem V_main_arg3 (c : Dev nD) : V m c main_arg3 = m ((c : Thread nD τ).loc main_arg3) := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Which conditional a point takes -/

/-- The first conditional is taken exactly at the points with key tile 0. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second is taken exactly where the key tile is not past the query tile. -/
theorem hcond2 : ∀ t : Fin cfg0.N, k0_cond2 (grid0.coords t) = 1#1 ↔ t.val % 4 ≤ t.val / 4 % 4 :=
  (by decide +kernel : ∀ t : Fin grid0.N, k0_cond2 (grid0.coords t) = 1#1 ↔ t.val % 4 ≤ t.val / 4 % 4)

/-- The result window is idle exactly at the dead points, -/
theorem idle5_iff : ∀ t : Fin cfg0.N, cfg0.idle 5 (grid0.coords t) = true ↔ ¬ t.val % 4 ≤ t.val / 4 % 4 :=
  (by decide +kernel : ∀ t : Fin grid0.N, cfg0.idle 5 (grid0.coords t) = true ↔ ¬ t.val % 4 ≤ t.val / 4 % 4)

/-- and the input windows never. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- Each window's current staging memref at point `t`, as the pipeline passes it to the body, and its wholeness. -/
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1024 .f32 := win0_5.stage (cfg0.slots t 5)
abbrev hs5 (t : Fin cfg0.N) : (ms5 t).IsWhole := hstage0_5 ((cfg0.slots t 5).cast nbuf0_5)
/-- The scratch buffer that keeps the query signs across the key tiles, as a memref. -/
abbrev scQ : Memref sig .tc .vmem S512x1024 .bf16 := Memref.whole cc0_scratch0

end Cert.Kernel.Attn

end
-- ==== Proof.WordFrame.RunFirst.lean ====
/-
  The body at a FIRST point (key tile 0, which is never past the query tile): both conditionals are taken. The
  first stores zero into the output tile's buffer and the signs of the query tile times the first sign vector
  into the scratch buffer; the second then adds key tile 0's contribution to the output tile, reading the
  scratch buffer and the output buffer the first has just stored.
-/
import proofs.«105131_j59863254172674_2_alg».proof.Proof.Gen.Kernel.Launch
import proofs.«105131_j59863254172674_2_alg».proof.Proof.Gen.Kernel.Skeleton
import proofs.«105131_j59863254172674_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 8000000 in
/-- What the body stores into the output tile's buffer and into the scratch buffer at a first point, as the pieces
    its run leaves (the output's, then the scratch's), with the run itself: the output's and the scratch's
    buffers are taken at any contents, being stored whole before they are used. -/
noncomputable def runFirst (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : k0_cond1 i = 1#1) (hc2 : k0_cond2 i = 1#1)
    (x0 x1 : Vec F S1x512x1024 .f32) (b5 b6 b7 : Vec F S1024 .f32) :
    Σ' (L8 : List (View.Piece (Elt F) S1x512x1024 .f32)), { L9 : List (View.Piece (Elt F) S512x1024 .bf16) //
      ∀ (E : Set ℕ) (K : PUnit → sProp 𝕄),
        iprop(owns (c : Thread nD τ) a3 fullShare x0 ∗ owns (c : Thread nD τ) a4 fullShare x1 ∗ owns (c : Thread nD τ) a5 fullShare b5
            ∗ owns (c : Thread nD τ) a6 fullShare b6 ∗ owns (c : Thread nD τ) a7 fullShare b7
            ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare b5
                ∗ owns (c : Thread nD τ) a6 fullShare b6 ∗ owns (c : Thread nD τ) a7 fullShare b7
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)) -∗ K ⟨⟩))
          ⊢ wp frame (wpE (defs₀ (F := F)) Variants.none c none) E (cc0__attn_kernel i a3 h3 a4 h4 a5 h5 a6 h6 a7 h7 a8 h8 a9 h9) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f5, %hf5, H5⟩, ⟨%f6, %hf6, H6⟩, ⟨%f7, %hf7, H7⟩, ⟨%d8, %f8, -, H8⟩, ⟨%d9, %f9, -, H9⟩, Hk⟩
    obtain rfl := h3.eq_unread hf0; obtain rfl := h4.eq_unread hf1; obtain rfl := h5.eq_unread hf5
    obtain rfl := h6.eq_unread hf6; obtain rfl := h7.eq_unread hf7
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    iexists _; iexact H9

end Cert.Kernel.Attn

end
-- ==== Proof.WordFrame.RunLive.lean ====
/-
  The body at a LIVE point (0 < key tile ≤ query tile): only the second conditional is taken. It loads the
  query signs kept in the scratch buffer, the key tile, the two sign vectors it needs and the output tile,
  and stores the output tile plus this key tile's contribution; nothing else is stored.
-/
import proofs.«105131_j59863254172674_2_alg».proof.Proof.Gen.Kernel.Launch
import proofs.«105131_j59863254172674_2_alg».proof.Proof.Gen.Kernel.Skeleton
import proofs.«105131_j59863254172674_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- What the body stores into the output tile's buffer at a live point, as the pieces its run leaves, with the
    run itself: from the seven buffers whole at their contents to the same with the output's pieces written. -/
noncomputable def runLive (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : ¬ k0_cond1 i = 1#1) (hc2 : k0_cond2 i = 1#1)
    (x0 x1 : Vec F S1x512x1024 .f32) (b5 b6 b7 : Vec F S1024 .f32) (o : Vec F S1x512x1024 .f32) (q : Vec F S512x1024 .bf16) :
    { L8 : List (View.Piece (Elt F) S1x512x1024 .f32) //
      ∀ (E : Set ℕ) (K : PUnit → sProp 𝕄),
        iprop(owns (c : Thread nD τ) a3 fullShare x0 ∗ owns (c : Thread nD τ) a4 fullShare x1 ∗ owns (c : Thread nD τ) a5 fullShare b5
            ∗ owns (c : Thread nD τ) a6 fullShare b6 ∗ owns (c : Thread nD τ) a7 fullShare b7
            ∗ owns (c : Thread nD τ) a8 fullShare o ∗ owns (c : Thread nD τ) a9 fullShare q
            ∗ (iprop(owns (c : Thread nD τ) a3 fullShare x0 ∗ owns (c : Thread nD τ) a4 fullShare x1 ∗ owns (c : Thread nD τ) a5 fullShare b5
                ∗ owns (c : Thread nD τ) a6 fullShare b6 ∗ owns (c : Thread nD τ) a7 fullShare b7
                ∗ (∃ f, a8.view.loc (c : Thread nD τ) ↦[a8.view.set]{fullShare} a8.view.writes (Elt F) f L8)
                ∗ owns (c : Thread nD τ) a9 fullShare q) -∗ K ⟨⟩))
          ⊢ wp frame (wpE (defs₀ (F := F)) Variants.none c none) E (cc0__attn_kernel i a3 h3 a4 h4 a5 h5 a6 h6 a7 h7 a8 h8 a9 h9) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f5, %hf5, H5⟩, ⟨%f6, %hf6, H6⟩, ⟨%f7, %hf7, H7⟩, ⟨%f8, %hf8, H8⟩, ⟨%f9, %hf9, H9⟩, Hk⟩
    obtain rfl := h3.eq_unread hf0; obtain rfl := h4.eq_unread hf1; obtain rfl := h5.eq_unread hf5
    obtain rfl := h6.eq_unread hf6; obtain rfl := h7.eq_unread hf7; obtain rfl := h8.eq_unread hf8; obtain rfl := h9.eq_unread hf9
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    iexists _; isplitr; · ipureintro; exact h9.read_unread _
    iexact H9

end Cert.Kernel.Attn

end
-- ==== Proof.WordFrame.Pieces.lean ====
/-
  What one grid point of the attention kernel leaves in the output tile's buffer and in the scratch buffer, read
  back from the stores its run performs: after a FIRST point (key tile 0) both are stored whole; after a LIVE point
  the output tile is; the stores cover their buffers, so what the buffers held before does not show.
-/
import proofs.«105131_j59863254172674_2_alg».proof.Proof.WordFrame.Entry
import proofs.«105131_j59863254172674_2_alg».proof.Proof.WordFrame.RunFirst
import proofs.«105131_j59863254172674_2_alg».proof.Proof.WordFrame.RunLive

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The scoped buffers the pipeline does not stage: the scratch buffer, at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scQ fullShare d) := by
  rw [scopedRest0_eq]; simp only [scQ, owns_whole]; try rfl

/-- One staging buffer of the result window, and the scratch buffer, as views: what they hold is stated through them. -/
abbrev VO : View sig .tc .vmem S1x512x1024 .f32 := (Memref.whole cc0_stg5_0 : Memref sig .tc .vmem S1x512x1024 .f32).view
abbrev VS : View sig .tc .vmem S512x1024 .bf16 := scQ.view

section Cases
variable (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)

/-- A first point's stores cover the output tile, -/
theorem coverFirstO (hc1 : k0_cond1 i = 1#1) (hc2 : k0_cond2 i = 1#1) (x0 x1 : Vec F S1x512x1024 .f32) (b5 b6 b7 : Vec F S1024 .f32)
    (y : S1x512x1024.Idx) : ∃ pc ∈ (runFirst c i a3 h3 a4 h4 a5 h5 a6 h6 a7 h7 a8 h8 a9 h9 hc1 hc2 x0 x1 b5 b6 b7).1, y ∈ pc.1.set :=
  View.cover_of_tiledL (runFirst c i a3 h3 a4 h4 a5 h5 a6 h6 a7 h7 a8 h8 a9 h9 hc1 hc2 x0 x1 b5 b6 b7).1 S1x512x1024.size (by sl_kernel_rfl) y

/-- and the scratch buffer. -/
theorem coverFirstS (hc1 : k0_cond1 i = 1#1) (hc2 : k0_cond2 i = 1#1) (x0 x1 : Vec F S1x512x1024 .f32) (b5 b6 b7 : Vec F S1024 .f32)
    (y : S512x1024.Idx) : ∃ pc ∈ (runFirst c i a3 h3 a4 h4 a5 h5 a6 h6 a7 h7 a8 h8 a9 h9 hc1 hc2 x0 x1 b5 b6 b7).2.1, y ∈ pc.1.set :=
  View.cover_of_tiledL (runFirst c i a3 h3 a4 h4 a5 h5 a6 h6 a7 h7 a8 h8 a9 h9 hc1 hc2 x0 x1 b5 b6 b7).2.1 S512x1024.size (by sl_kernel_rfl) y

/-- A live point's store covers the output tile. -/
theorem coverLive (hc1 : ¬ k0_cond1 i = 1#1) (hc2 : k0_cond2 i = 1#1) (x0 x1 : Vec F S1x512x1024 .f32) (b5 b6 b7 : Vec F S1024 .f32)
    (o : Vec F S1x512x1024 .f32) (q : Vec F S512x1024 .bf16)
    (y : S1x512x1024.Idx) : ∃ pc ∈ (runLive c i a3 h3 a4 h4 a5 h5 a6 h6 a7 h7 a8 h8 a9 h9 hc1 hc2 x0 x1 b5 b6 b7 o q).1, y ∈ pc.1.set :=
  View.cover_of_tiledL (runLive c i a3 h3 a4 h4 a5 h5 a6 h6 a7 h7 a8 h8 a9 h9 hc1 hc2 x0 x1 b5 b6 b7 o q).1 S1x512x1024.size (by sl_kernel_rfl) y

/-- The output tile after a first point. -/
def outFirst (hc1 : k0_cond1 i = 1#1) (hc2 : k0_cond2 i = 1#1) (x0 x1 : Vec F S1x512x1024 .f32) (b5 b6 b7 : Vec F S1024 .f32) : Vec F S1x512x1024 .f32 :=
  VO.read (Elt F) (VO.writes (Elt F) VO.junk (runFirst c i a3 h3 a4 h4 a5 h5 a6 h6 a7 h7 a8 h8 a9 h9 hc1 hc2 x0 x1 b5 b6 b7).1)

/-- The scratch buffer after a first point. -/
def scrFirst (hc1 : k0_cond1 i = 1#1) (hc2 : k0_cond2 i = 1#1) (x0 x1 : Vec F S1x512x1024 .f32) (b5 b6 b7 : Vec F S1024 .f32) : Vec F S512x1024 .bf16 :=
  VS.read (Elt F) (VS.writes (Elt F) VS.junk (runFirst c i a3 h3 a4 h4 a5 h5 a6 h6 a7 h7 a8 h8 a9 h9 hc1 hc2 x0 x1 b5 b6 b7).2.1)

/-- The output tile after a live point that found `o` in it and `q` in the scratch buffer. -/
def outLive (hc1 : ¬ k0_cond1 i = 1#1) (hc2 : k0_cond2 i = 1#1) (x0 x1 : Vec F S1x512x1024 .f32) (b5 b6 b7 : Vec F S1024 .f32)
    (o : Vec F S1x512x1024 .f32) (q : Vec F S512x1024 .bf16) : Vec F S1x512x1024 .f32 :=
  VO.read (Elt F) (VO.writes (Elt F) VO.junk (runLive c i a3 h3 a4 h4 a5 h5 a6 h6 a7 h7 a8 h8 a9 h9 hc1 hc2 x0 x1 b5 b6 b7 o q).1)

end Cases

end Cert.Kernel.Attn

end
-- ==== Proof.WordFrame.RunDead.lean ====
/-
  The body at a DEAD point (key tile past the query tile: every score is above the diagonal): neither
  conditional is taken, and the body touches no buffer.
-/
import proofs.«105131_j59863254172674_2_alg».proof.Proof.Gen.Kernel.Launch
import proofs.«105131_j59863254172674_2_alg».proof.Proof.Gen.Kernel.Skeleton
import proofs.«105131_j59863254172674_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- At a dead point the body is a return: whatever holds before holds after. -/
theorem runDead (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : ¬ k0_cond1 i = 1#1) (hc2 : ¬ k0_cond2 i = 1#1) (E : Set ℕ) (K : PUnit → sProp 𝕄) :
    K ⟨⟩ ⊢ wp frame (wpE (defs₀ (F := F)) Variants.none c none) E (cc0__attn_kernel i a3 h3 a4 h4 a5 h5 a6 h6 a7 h7 a8 h8 a9 h9) K := by
  simp only [cc0__attn_kernel_eq_skeleton]; unfold cc0__attn_kernel_skel
  iintro Hk
  sl_exec (disch := first | exact hc1 | exact hc2)
  sl_step
  iexact Hk

end Cert.Kernel.Attn

end
-- ==== Proof.WordFrame.Carry.lean ====
/-
  The attention kernel point by point: what the output tile's staging buffer and the scratch buffer hold after
  each grid point, the region's invariant, the proof data, and the body obligation.

  After a FIRST point (key tile 0) the scratch holds the query tile's signs and the output tile key tile 0's
  contribution added to zero; after a LIVE point the output tile has that key tile's contribution added and the
  scratch is as before; a DEAD point changes neither. The output tile is written back after key tile 3, at a
  point that may be dead: its buffer then still holds what the last live point left, which is why the
  contents are carried through the dead points.
-/
import proofs.«105131_j59863254172674_2_alg».proof.Proof.WordFrame.Entry
import proofs.«105131_j59863254172674_2_alg».proof.Proof.WordFrame.RunFirst
import proofs.«105131_j59863254172674_2_alg».proof.Proof.WordFrame.RunLive
import proofs.«105131_j59863254172674_2_alg».proof.Proof.WordFrame.Pieces
import proofs.«105131_j59863254172674_2_alg».proof.Proof.WordFrame.RunDead

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## Point by point -/

/-- What point `t` makes of the output tile's and the scratch buffer's contents `prev`. -/
def stepAt (c : Dev nD) (t : Fin cfg0.N) (prev : Vec F S1x512x1024 .f32 × Vec F S512x1024 .bf16) :
    Vec F S1x512x1024 .f32 × Vec F S512x1024 .bf16 :=
  if h0 : t.val % 4 = 0 then
    (outFirst c (grid0.coords t) (ms0 t) (hs0 t) (ms1 t) (hs1 t) (ms2 t) (hs2 t) (ms3 t) (hs3 t) (ms4 t) (hs4 t) (ms5 t) (hs5 t) scQ (Memref.isWhole_whole _) ((hcond1 t).mpr h0) ((hcond2 t).mpr (by omega)) (iblk m c 0 t) (iblk m c 1 t) (iblk m c 2 t) (iblk m c 3 t) (iblk m c 4 t),
     scrFirst c (grid0.coords t) (ms0 t) (hs0 t) (ms1 t) (hs1 t) (ms2 t) (hs2 t) (ms3 t) (hs3 t) (ms4 t) (hs4 t) (ms5 t) (hs5 t) scQ (Memref.isWhole_whole _) ((hcond1 t).mpr h0) ((hcond2 t).mpr (by omega)) (iblk m c 0 t) (iblk m c 1 t) (iblk m c 2 t) (iblk m c 3 t) (iblk m c 4 t))
  else if h1 : t.val % 4 ≤ t.val / 4 % 4 then
    (outLive c (grid0.coords t) (ms0 t) (hs0 t) (ms1 t) (hs1 t) (ms2 t) (hs2 t) (ms3 t) (hs3 t) (ms4 t) (hs4 t) (ms5 t) (hs5 t) scQ (Memref.isWhole_whole _) (fun h => h0 ((hcond1 t).mp h)) ((hcond2 t).mpr h1) (iblk m c 0 t) (iblk m c 1 t) (iblk m c 2 t) (iblk m c 3 t) (iblk m c 4 t) prev.1 prev.2, prev.2)
  else prev

/-- THE ACCUMULATION: the output tile's buffer and the scratch buffer after the body at position `n`. -/
def outsAt (c : Dev nD) : (n : ℕ) → n < cfg0.N → Vec F S1x512x1024 .f32 × Vec F S512x1024 .bf16
  | 0, hn => stepAt m c ⟨0, hn⟩ (VO.read (Elt F) VO.junk, VS.read (Elt F) VS.junk)
  | n + 1, hn => stepAt m c ⟨n + 1, hn⟩ (outsAt c n (Nat.lt_of_succ_lt hn))

theorem outsAt_succ (c : Dev nD) (n : ℕ) (hn : n + 1 < cfg0.N) :
    outsAt m c (n + 1) hn = stepAt m c ⟨n + 1, hn⟩ (outsAt m c n (Nat.lt_of_succ_lt hn)) := rfl

/-- After a point that is not the first of all: the step over what the point before left. -/
theorem outsAt_pos (c : Dev nD) (t : Fin cfg0.N) (ht : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl ht
  | succ n => rfl

/-- At a first point what came before does not matter. -/
theorem stepAt_first (c : Dev nD) (t : Fin cfg0.N) (h0 : t.val % 4 = 0) (prev prev' : Vec F S1x512x1024 .f32 × Vec F S512x1024 .bf16) :
    stepAt m c t prev = stepAt m c t prev' := by
  unfold stepAt; rw [dif_pos h0, dif_pos h0]

theorem outsAt_first (c : Dev nD) (t : Fin cfg0.N) (h0 : t.val % 4 = 0) (prev : Vec F S1x512x1024 .f32 × Vec F S512x1024 .bf16) :
    outsAt m c t.val t.isLt = stepAt m c t prev := by
  obtain ⟨n, hn⟩ := t
  cases n with
  | zero => exact stepAt_first m c _ h0 _ _
  | succ n => exact stepAt_first m c _ h0 _ _

/-- The region invariant before position `n`: before the first point the scratch buffer at anything, afterwards at what
    the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scQ fullShare (outsAt m c n hn).2

theorem PhiS_succ (c : Dev nD) (n : ℕ) (hn : n < cfg0.N) :
    PhiS m c (n + 1) hn = owns (c : Thread nD τ) scQ fullShare (outsAt m c n hn).2 := rfl

theorem PhiS_pos (c : Dev nD) (n : ℕ) (h : n ≤ cfg0.N) (hz : n ≠ 0) :
    PhiS m c n h = owns (c : Thread nD τ) scQ fullShare (outsAt m c (n - 1) (by omega)).2 := by
  cases n with
  | zero => exact absurd rfl hz
  | succ n => rfl

/-! ## The proof data -/

/-- The proof data on core `c`: the arrays as the region finds them; after the body each input's buffer at its block
    and the output tile's at the accumulation; the invariant above; x's share halved between the query window and
    the key window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

/-! ## What each buffer holds when the body runs -/

/-- An input's current staging buffer holds its block at every point, fetched there or not: where it is not fetched
    its block index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- The output tile is not written back after key tiles 0, 1, 2. -/
theorem noFlush5 : ∀ t : Fin cfg0.N, t.val % 4 ≠ 3 → (cfg0.win 5).flush t = false := fun t h => by
  have := (flush0_5 t).not.mpr h; simpa using this

/-- The output tile's buffer at a point past key tile 0 holds what the point before left in it — the accumulator,
    carried through the dead points, which touch nothing. -/
theorem before5 (c : Dev nD) : ∀ (n : ℕ) (hn : n < cfg0.N), n % 4 ≠ 0 → ∀ d,
    (dats m 0 c).before 5 ⟨n, hn⟩ d = (outsAt m c (n - 1) (by omega)).1 := by
  intro n
  induction n using Nat.strong_induction_on with
  | _ n ih =>
    intro hn h0 d
    have hN : n < 64 := lt_of_lt_of_eq hn N_0
    have hpos : n ≠ 0 := by rintro rfl; exact h0 rfl
    have hn1 : n - 1 < cfg0.N := by omega
    rw [(dats m 0 c).before_of_pos 5 ⟨n, hn⟩ hpos ((cfg0.win 5).fetch_out rfl _) d]
    rw [noFlush5 ⟨n - 1, hn1⟩ (by show (n - 1) % 4 ≠ 3; omega), if_neg Bool.false_ne_true]
    unfold Dat.left
    by_cases hd : (n - 1) % 4 ≤ (n - 1) / 4 % 4
    · have hi : cfg0.idle 5 (grid0.coords ⟨n - 1, hn1⟩) = false := by
        have := (idle5_iff ⟨n - 1, hn1⟩).not.mpr (not_not.mpr hd); simpa using this
      split
      case h_1 hm => exact absurd (hm.symm.trans hi) (by decide)
      case h_2 hm =>
        unfold Dat.kept
        rw [Pipeline.fill_of_clip_none 5 _ (fun _ => rfl) d ((dats m 0 c).after 5 _), Window.fill_cut, after5]
    · have hi : cfg0.idle 5 (grid0.coords ⟨n - 1, hn1⟩) = true := (idle5_iff ⟨n - 1, hn1⟩).mpr hd
      split
      case h_2 hm => exact absurd (hm.symm.trans hi) (by decide)
      case h_1 hm =>
        have h0' : (n - 1) % 4 ≠ 0 := by omega
        rw [ih (n - 1) (by omega) hn1 h0' d]
        have hp' : (⟨n - 1, hn1⟩ : Fin cfg0.N).val ≠ 0 := by show n - 1 ≠ 0; omega
        rw [outsAt_pos m c ⟨n - 1, hn1⟩ hp']
        unfold stepAt
        rw [dif_neg (by show ¬ (n - 1) % 4 = 0; exact h0'), dif_neg (by show ¬ (n - 1) % 4 ≤ (n - 1) / 4 % 4; exact hd)]

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point: the inputs' buffers hold their blocks; the point's kind decides which conditionals run;
    at a first point the output tile and the scratch are stored whole; at a live point the output tile is the
    accumulator the point before left and the scratch the signs the last first point stored; at a dead point
    nothing is touched, so the accumulator and the scratch pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 64 := lt_of_lt_of_eq t.isLt (show cfg0.N = 64 from N_0)
  by_cases h0 : t.val % 4 = 0
  · have h2 : t.val % 4 ≤ t.val / 4 % 4 := by omega
    have hi5 : cfg0.idle 5 (grid0.coords t) = false := by
      have := (idle5_iff t).not.mpr (not_not.mpr h2); simpa using this
    rw [show (dats m 0 c).leavesExact 5 t = owns (c : Thread nD τ) (ms5 t) fullShare ((dats m 0 c).after 5 t) from by
      unfold Dat.leavesExact; rw [hi5], after5]
    rw [outsAt_first m c t h0 (VO.read (Elt F) VO.junk, VS.read (Elt F) VS.junk)]
    unfold stepAt; rw [dif_pos h0]; dsimp only
    unfold outFirst scrFirst
    by_cases hz : t.val = 0
    · rw [PhiS_castSucc m c t, PhiS_zero m c _ _ hz, scoped_eq]
      iintro ⟨HS, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcond1 t).mpr h0) ((hcond2 t).mpr h2) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%e9, HS⟩⟩
      isplitl [HS]
      · unfold owns; iexists _; isplitr
        swap; · iexact HS
        ipureintro; exact View.read_writes_of_cover _ _ _ _ _ (coverFirstS c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFirstO c _ _ _ _ _ _ _ _ _ _ _ _ _ _ _ _ _ _ _ _ _ _)
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcond1 t).mpr h0) ((hcond2 t).mpr h2) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%e9, HS⟩⟩
      isplitl [HS]
      · unfold owns; iexists _; isplitr
        swap; · iexact HS
        ipureintro; exact View.read_writes_of_cover _ _ _ _ _ (coverFirstS c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFirstO c _ _ _ _ _ _ _ _ _ _ _ _ _ _ _ _ _ _ _ _ _ _)
  · have hz : t.val ≠ 0 := by omega
    rw [PhiS_castSucc m c t, PhiS_pos m c _ _ hz]
    rw [outsAt_pos m c t hz]
    simp only [before5 m c t.val t.isLt h0]
    by_cases h1 : t.val % 4 ≤ t.val / 4 % 4
    · have hi5 : cfg0.idle 5 (grid0.coords t) = false := by
        have := (idle5_iff t).not.mpr (not_not.mpr h1); simpa using this
      rw [show (dats m 0 c).leavesExact 5 t = owns (c : Thread nD τ) (ms5 t) fullShare ((dats m 0 c).after 5 t) from by
        unfold Dat.leavesExact; rw [hi5], after5]
      rw [outsAt_pos m c t hz]
      unfold stepAt; rw [dif_neg h0, dif_pos h1]; dsimp only
      unfold outLive
      iintro ⟨HS, Ho, ⟨%d0, H0⟩, ⟨%d1, H1⟩, ⟨%d2, H2⟩, ⟨%d3, H3⟩, ⟨%d4, H4⟩, ⟨%d5, H5⟩⟩
      iapply ((runLive c (grid0.coords t) _ _ _ _ _ _ _ _ _ _ _ _ _ _ (fun h => h0 ((hcond1 t).mp h)) ((hcond2 t).mpr h1) (iblk m c 0 t) (iblk m c 1 t) (iblk m c 2 t) (iblk m c 3 t) (iblk m c 4 t)
        (outsAt m c (t.val - 1) (Nat.lt_of_le_of_lt (Nat.sub_le _ _) t.isLt)).1 (outsAt m c (t.val - 1) (Nat.lt_of_le_of_lt (Nat.sub_le _ _) t.isLt)).2).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, ⟨%e5, H5⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLive c _ _ _ _ _ _ _ _ _ _ _ _ _ _ _ _ _ _ _ _ _ _ _ _)
    · have hi5 : cfg0.idle 5 (grid0.coords t) = true := (idle5_iff t).mpr h1
      unfold stepAt; rw [dif_neg h0, dif_neg h1]
      iintro ⟨HS, Ho, ⟨%d0, H0⟩, ⟨%d1, H1⟩, ⟨%d2, H2⟩, ⟨%d3, H3⟩, ⟨%d4, H4⟩, ⟨%d5, H5⟩⟩
      iapply (runDead c (grid0.coords t) _ _ _ _ _ _ _ _ _ _ _ _ _ _ (fun h => h0 ((hcond1 t).mp h)) (fun h => h1 ((hcond2 t).mp h)) Set.univ _)
      isplitl [HS]; · iexact HS
      isplitl [Ho]; · iexact Ho
      isplitl [H0]; · iexact H0
      isplitl [H1]; · iexact H1
      isplitl [H2]; · iexact H2
      isplitl [H3]; · iexact H3
      isplitl [H4]; · iexact H4
      by_cases hf : (cfg0.win 5).flush t = true
      · rw [show (dats m 0 c).leavesExact 5 t = owns (c : Thread nD τ) (ms5 t) fullShare ((dats m 0 c).after 5 t) from by
          unfold Dat.leavesExact; rw [hi5, hf], after5, outsAt_pos m c t hz]
        unfold stepAt; rw [dif_neg h0, dif_neg h1]
        iexact H5
      · rw [Dat.leavesExact_idle (dats m 0 c) 5 t hi5 (by simpa using hf)]
        iexists (fun _ => Classical.arbitrary _)
        rw [before5 m c t.val t.isLt h0]
        iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- and after the last point the invariant gives it back: what the scratch holds is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro HS
  iexists _; iexact HS

end Cert.Kernel.Attn

end
-- ==== Proof.WordFrame.Launch.lean ====
/-
  The launch of the attention region, for any proof data.

  Two of the region's windows — the query tile and the key tile — read the SAME array x, so the array's full
  share cannot be given to each: it is split in two halves, the query window holding the left and the key
  window the right. Both only read, so half a share is all either needs. The three sign vectors and the
  result each have an array of their own, held at the full share. The scratch buffer that keeps the query signs
  is the one scoped buffer the pipeline does not stage: it enters the body's invariant at some contents and
  leaves it at some contents. The bias vectors bypass the region and are read back unchanged.
-/
import proofs.«105131_j59863254172674_2_alg».proof.Proof.WordFrame.Entry
import proofs.«105131_j59863254172674_2_alg».proof.Proof.WordFrame.Pieces
import Idealize.ShloMosaic.Lib.Pipeline.Frame

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A window's array, held as the proof data states it, is the buffer behind it held whole. -/
theorem array_eq (c : Dev nD) (dat : Dat τ (Elt F) Unit ℕ (UR sig nD τ) ℕ cfg0 c)
    (hA : ∀ w, dat.A w = V m c (Pipeline.arrRef spec0 w)) (w : Fin cfg0.W) :
    (((cfg0.win w).arr.view.loc (c.tc : Thread nD τ)) ↦[(cfg0.win w).arr.view.set]{dat.share w} dat.arrAt w 0 : sProp 𝕄)
      = (((c.tc : Thread nD τ).loc (Pipeline.arrRef spec0 w)) ↦{dat.share w} V m c (Pipeline.arrRef spec0 w)) := by
  rw [(arr_whole0 w).set_eq_univ, show dat.arrAt w 0 = V m c (Pipeline.arrRef spec0 w) from hA w]

/-- The five distinct buffers behind the six windows' arrays, each whole at the full share, are the windows'
    arrays at the shares the proof data names: x's share halved between the query and the key window. -/
theorem split_arrays (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare)
    (hA : ∀ w, dat.A w = V m c (Pipeline.arrRef spec0 w)) :
    (Pipeline.arrBufs spec0 c (V m c) : sProp 𝕄) ⊢ dat.arrays (dat.arrAt · 0) := by
  unfold Pipeline.arrBufs Dat.arrays
  rw [bigSep_W0]
  beta_reduce
  rw [array_eq m c dat hA 0, array_eq m c dat hA 1, array_eq m c dat hA 2, array_eq m c dat hA 3, array_eq m c dat hA 4, array_eq m c dat hA 5]
  have h0 : dat.share 0 = fullShare.left := by unfold Dat.share; exact (if_neg (by decide)).trans hq0
  have h1 : dat.share 1 = fullShare.right := by unfold Dat.share; exact (if_neg (by decide)).trans hq1
  have h2 : dat.share 2 = fullShare := by unfold Dat.share; exact (if_neg (by decide)).trans hq2
  have h3 : dat.share 3 = fullShare := by unfold Dat.share; exact (if_neg (by decide)).trans hq3
  have h4 : dat.share 4 = fullShare := by unfold Dat.share; exact (if_neg (by decide)).trans hq4
  have h5 : dat.share 5 = fullShare := by unfold Dat.share; exact if_pos (by decide)
  rw [h0, h1, h2, h3, h4, h5]
  rw [show (Finset.univ.image (Pipeline.arrRef spec0) : Finset (Ref sig .tc))
      = {Pipeline.arrRef spec0 0, Pipeline.arrRef spec0 2, Pipeline.arrRef spec0 3, Pipeline.arrRef spec0 4, Pipeline.arrRef spec0 5} from by decide,
    BI.bigSep_insert (by decide), BI.bigSep_insert (by decide), BI.bigSep_insert (by decide), BI.bigSep_insert (by decide), BI.bigSep_singleton]
  have hsp : (((c.tc : Thread nD τ).loc (Pipeline.arrRef spec0 0)) ↦{fullShare} V m c (Pipeline.arrRef spec0 0) : sProp 𝕄)
      = iprop((((c.tc : Thread nD τ).loc (Pipeline.arrRef spec0 0)) ↦{fullShare.left} V m c (Pipeline.arrRef spec0 0))
          ∗ (((c.tc : Thread nD τ).loc (Pipeline.arrRef spec0 0)) ↦{fullShare.right} V m c (Pipeline.arrRef spec0 0))) :=
    BI.Entails.antisymm (pointsTo_share (PosShare.mem_left_op_right fullShare)).1 (pointsTo_share (PosShare.mem_left_op_right fullShare)).2
  rw [hsp]
  show (iprop(((((c.tc : Thread nD τ).loc (Pipeline.arrRef spec0 0)) ↦{fullShare.left} V m c (Pipeline.arrRef spec0 0))
          ∗ (((c.tc : Thread nD τ).loc (Pipeline.arrRef spec0 0)) ↦{fullShare.right} V m c (Pipeline.arrRef spec0 0)))
      ∗ (((c.tc : Thread nD τ).loc (Pipeline.arrRef spec0 2)) ↦{fullShare} V m c (Pipeline.arrRef spec0 2))
      ∗ (((c.tc : Thread nD τ).loc (Pipeline.arrRef spec0 3)) ↦{fullShare} V m c (Pipeline.arrRef spec0 3))
      ∗ (((c.tc : Thread nD τ).loc (Pipeline.arrRef spec0 4)) ↦{fullShare} V m c (Pipeline.arrRef spec0 4))
      ∗ (((c.tc : Thread nD τ).loc (Pipeline.arrRef spec0 5)) ↦{fullShare} V m c (Pipeline.arrRef spec0 5))) : sProp 𝕄) ⊢ _
  iintro ⟨⟨Ha, Hb⟩, H1, H2, H3, H4⟩
  isplitl [Ha]; · iexact Ha
  isplitl [Hb]; · iexact Hb
  isplitl [H1]; · iexact H1
  isplitl [H2]; · iexact H2
  isplitl [H3]; · iexact H3
  iexact H4

/-- THE FRAME RUN of the attention program, for any proof data that halves x's share between the query and the key
    window, owes nothing, starts from the arrays as the region finds them, and whose invariant is entered from,
    and left to, the scratch buffer at some contents: every weakly fair execution of @main terminates without a
    fault, each window's array ends at what the write-backs leave in it, and every buffer that bypasses the region
    ends as the region found it. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare) (hq4 : ∀ c, (dats 0 c).q 4 = fullShare)
    (howed : ∀ c t, (dats 0 c).owed t = 0)
    (hA : ∀ c w, (dats 0 c).A w = V m c (Pipeline.arrRef spec0 w))
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run defs (onTc (τ := τ) (main (F := F))) (s₀ m ρ) (Pipeline.FramePost cfgs dats 0 (V m)) :=
  Pipeline.θ_run_region_noSem_shared cfgs dats () cellOf_inj (0 : Fin 1) winFacts₀0 emb₁ defs₀ Variants.none m ρ main
    hbody block_pos0 arr_whole0 stage_whole0 howed
    (u₀ := initOf (Pipeline.cells cfgs cellOf_inj) (Pipeline.launchToks cfgs cellOf_inj))
    (hu₀ := .rfl)
    (V := V m) (hmain := hmain m Variants.none)
    (hsplit := fun c => split_arrays m c (dats 0 c) (hq0 c) (hq1 c) (hq2 c) (hq3 c) (hq4 c) (hA c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin c); iexact H)
    (hout := fun c => by
      iintro H
      isplitr; · iempintro
      iapply (hout c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Attn

end
-- ==== Proof.WordFrame.Frame.lean ====
/-
  The frame of the attention program: the launch applied to the proof data. Every weakly fair execution of @main
  terminates without a fault and leaves the four argument arrays as they were; the result array ends at what the
  write-backs of the output tile leave in it.
-/
import proofs.«105131_j59863254172674_2_alg».proof.Proof.WordFrame.Carry
import proofs.«105131_j59863254172674_2_alg».proof.Proof.WordFrame.Launch

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- Every weakly fair execution of @main terminates without a fault; each window's array ends at what the
    write-backs leave in it and every bypassing buffer as the region found it. -/
theorem run_main : θ_run defs (onTc (τ := τ) (main (F := F))) (s₀ m ρ) (Pipeline.FramePost cfgs (dats m) 0 (V m)) :=
  run_of m ρ (dats m) (fun c => (body_obligation m c).loose) (fun _ => rfl) (fun _ => rfl) (fun _ => rfl) (fun _ => rfl) (fun _ => rfl)
    (fun _ _ => rfl) (A_eq m) (hin m) (hout m)

/-- THE FRAME: the four argument arrays end as they were. The array x is the (input) query window's array; the three
    bias vectors bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of _ rfl (by decide))).trans (V_main_arg1 m c),
     ((h c).2 main_arg2 (Pipeline.mem_restRefs_of _ rfl (by decide))).trans (V_main_arg2 m c),
     ((h c).2 main_arg3 (Pipeline.mem_restRefs_of _ rfl (by decide))).trans (V_main_arg3 m c)⟩) (run_main m ρ)

/-- The same run, with the result array named: it ends at what the write-backs of the output tile leave in it. -/
theorem run_result : θ_run defs (onTc (τ := τ) (main (F := F))) ⟨m, fun _ => 0, ρ⟩ (fun r => ∀ c : Dev nD,
      r.2.mem ((c.tc : Thread nD τ).loc main_v3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
     ((h c).1 0).trans (((dats m 0 c).arrAt_in 0 rfl _).trans ((A_eq m c 0).trans (V_main_arg0 m c))),
     ((h c).2 main_arg1 (Pipeline.mem_restRefs_of _ rfl (by decide))).trans (V_main_arg1 m c),
     ((h c).2 main_arg2 (Pipeline.mem_restRefs_of _ rfl (by decide))).trans (V_main_arg2 m c),
     ((h c).2 main_arg3 (Pipeline.mem_restRefs_of _ rfl (by decide))).trans (V_main_arg3 m c)⟩) (run_main m ρ)

end Cert.Kernel.Attn

end
-- ==== Proof.IdealFrame.Entry.lean ====
/-
  The causal binary-attention kernel, idealized: what its region finds on entry, and which of its two
  conditionals a grid point takes.

  The grid is (batch b, query tile qi, key tile ki) = 4 × 4 × 4, the point t = 16·b + 4·qi + ki. The first
  conditional (ki = 0) zeroes the output tile and stores the query signs into the scratch buffer; the second
  (ki ≤ qi) adds one key tile's contribution to the output tile. So a point is of one of three kinds: FIRST
  (ki = 0: both taken), LIVE (0 < ki ≤ qi: the second only), DEAD (qi < ki: neither). Before the region the host
  takes the signs of the three bias vectors; the region's six windows are two on the SAME array x (the query
  tile and the key tile), the three sign vectors, and the result.
-/
import proofs.«105131_j59863254172674_2_alg».proof.Proof.Gen.KernelIdeal.Launch
import proofs.«105131_j59863254172674_2_alg».proof.Proof.Gen.KernelIdeal.Skeleton
import proofs.«105131_j59863254172674_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the three host sign operations, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host sign operations allocate nothing. -/
theorem hostOps0_fresh : (hostOps0 : List (HloOp τ sig (Elt F))).Forall fun op => op.fresh = ∅ := by
  simp only [List.Forall]; repeat' constructor

/-- @main is the three host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write their own results only: the argument arrays are as at launch. -/
theorem V_main_arg0 (c : Dev nD) : V m c main_arg0 = m ((c : Thread nD τ).loc main_arg0) := by
  dsimp only [V, V0, hostOps0]; after_results
theorem V_main_arg1 (c : Dev nD) : V m c main_arg1 = m ((c : Thread nD τ).loc main_arg1) := by
  dsimp only [V, V0, hostOps0]; after_results
theorem V_main_arg2 (c : Dev nD) : V m c main_arg2 = m ((c : Thread nD τ).loc main_arg2) := by
  dsimp only [V, V0, hostOps0]; after_results
theorem V_main_arg3 (c : Dev nD) : V m c main_arg3 = m ((c : Thread nD τ).loc main_arg3) := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Which conditional a point takes -/

/-- The first conditional is taken exactly at the points with key tile 0. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second is taken exactly where the key tile is not past the query tile. -/
theorem hcond2 : ∀ t : Fin cfg0.N, k0_cond2 (grid0.coords t) = 1#1 ↔ t.val % 4 ≤ t.val / 4 % 4 :=
  (by decide +kernel : ∀ t : Fin grid0.N, k0_cond2 (grid0.coords t) = 1#1 ↔ t.val % 4 ≤ t.val / 4 % 4)

/-- The result window is idle exactly at the dead points, -/
theorem idle5_iff : ∀ t : Fin cfg0.N, cfg0.idle 5 (grid0.coords t) = true ↔ ¬ t.val % 4 ≤ t.val / 4 % 4 :=
  (by decide +kernel : ∀ t : Fin grid0.N, cfg0.idle 5 (grid0.coords t) = true ↔ ¬ t.val % 4 ≤ t.val / 4 % 4)

/-- and the input windows never. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- Each window's current staging memref at point `t`, as the pipeline passes it to the body, and its wholeness. -/
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1024 .f32 := win0_5.stage (cfg0.slots t 5)
abbrev hs5 (t : Fin cfg0.N) : (ms5 t).IsWhole := hstage0_5 ((cfg0.slots t 5).cast nbuf0_5)
/-- The scratch buffer that keeps the query signs across the key tiles, as a memref. -/
abbrev scQ : Memref sig .tc .vmem S512x1024 .bf16 := Memref.whole cc0_scratch0

end Cert.KernelIdeal.Attn

end
-- ==== Proof.IdealFrame.RunFirst.lean ====
/-
  The body at a FIRST point (key tile 0, which is never past the query tile): both conditionals are taken. The
  first stores zero into the output tile's buffer and the signs of the query tile times the first sign vector
  into the scratch buffer; the second then adds key tile 0's contribution to the output tile, reading the
  scratch buffer and the output buffer the first has just stored.
-/
import proofs.«105131_j59863254172674_2_alg».proof.Proof.Gen.KernelIdeal.Launch
import proofs.«105131_j59863254172674_2_alg».proof.Proof.Gen.KernelIdeal.Skeleton
import proofs.«105131_j59863254172674_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body stores into the output tile's buffer and into the scratch buffer at a first point, as the pieces
    its run leaves (the output's, then the scratch's), with the run itself: the output's and the scratch's
    buffers are taken at any contents, being stored whole before they are used. -/
noncomputable def runFirst (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : k0_cond1 i = 1#1) (hc2 : k0_cond2 i = 1#1)
    (x0 x1 : Vec F S1x512x1024 .f32) (b5 b6 b7 : Vec F S1024 .f32) :
    Σ' (L8 : List (View.Piece (Elt F) S1x512x1024 .f32)), { L9 : List (View.Piece (Elt F) S512x1024 .bf16) //
      ∀ (E : Set ℕ) (K : PUnit → sProp 𝕄),
        iprop(owns (c : Thread nD τ) a3 fullShare x0 ∗ owns (c : Thread nD τ) a4 fullShare x1 ∗ owns (c : Thread nD τ) a5 fullShare b5
            ∗ owns (c : Thread nD τ) a6 fullShare b6 ∗ owns (c : Thread nD τ) a7 fullShare b7
            ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare b5
                ∗ owns (c : Thread nD τ) a6 fullShare b6 ∗ owns (c : Thread nD τ) a7 fullShare b7
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)) -∗ K ⟨⟩))
          ⊢ wp frame (wpE (defs₀ (F := F)) Variants.none c none) E (cc0__attn_kernel i a3 h3 a4 h4 a5 h5 a6 h6 a7 h7 a8 h8 a9 h9) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f5, %hf5, H5⟩, ⟨%f6, %hf6, H6⟩, ⟨%f7, %hf7, H7⟩, ⟨%d8, %f8, -, H8⟩, ⟨%d9, %f9, -, H9⟩, Hk⟩
    obtain rfl := h3.eq_unread hf0; obtain rfl := h4.eq_unread hf1; obtain rfl := h5.eq_unread hf5
    obtain rfl := h6.eq_unread hf6; obtain rfl := h7.eq_unread hf7
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    iexists _; iexact H9

end Cert.KernelIdeal.Attn

end
-- ==== Proof.IdealFrame.RunLive.lean ====
/-
  The body at a LIVE point (0 < key tile ≤ query tile): only the second conditional is taken. It loads the
  query signs kept in the scratch buffer, the key tile, the two sign vectors it needs and the output tile,
  and stores the output tile plus this key tile's contribution; nothing else is stored.
-/
import proofs.«105131_j59863254172674_2_alg».proof.Proof.Gen.KernelIdeal.Launch
import proofs.«105131_j59863254172674_2_alg».proof.Proof.Gen.KernelIdeal.Skeleton
import proofs.«105131_j59863254172674_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores into the output tile's buffer at a live point, as the pieces its run leaves, with the
    run itself: from the seven buffers whole at their contents to the same with the output's pieces written. -/
noncomputable def runLive (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : ¬ k0_cond1 i = 1#1) (hc2 : k0_cond2 i = 1#1)
    (x0 x1 : Vec F S1x512x1024 .f32) (b5 b6 b7 : Vec F S1024 .f32) (o : Vec F S1x512x1024 .f32) (q : Vec F S512x1024 .bf16) :
    { L8 : List (View.Piece (Elt F) S1x512x1024 .f32) //
      ∀ (E : Set ℕ) (K : PUnit → sProp 𝕄),
        iprop(owns (c : Thread nD τ) a3 fullShare x0 ∗ owns (c : Thread nD τ) a4 fullShare x1 ∗ owns (c : Thread nD τ) a5 fullShare b5
            ∗ owns (c : Thread nD τ) a6 fullShare b6 ∗ owns (c : Thread nD τ) a7 fullShare b7
            ∗ owns (c : Thread nD τ) a8 fullShare o ∗ owns (c : Thread nD τ) a9 fullShare q
            ∗ (iprop(owns (c : Thread nD τ) a3 fullShare x0 ∗ owns (c : Thread nD τ) a4 fullShare x1 ∗ owns (c : Thread nD τ) a5 fullShare b5
                ∗ owns (c : Thread nD τ) a6 fullShare b6 ∗ owns (c : Thread nD τ) a7 fullShare b7
                ∗ (∃ f, a8.view.loc (c : Thread nD τ) ↦[a8.view.set]{fullShare} a8.view.writes (Elt F) f L8)
                ∗ owns (c : Thread nD τ) a9 fullShare q) -∗ K ⟨⟩))
          ⊢ wp frame (wpE (defs₀ (F := F)) Variants.none c none) E (cc0__attn_kernel i a3 h3 a4 h4 a5 h5 a6 h6 a7 h7 a8 h8 a9 h9) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f5, %hf5, H5⟩, ⟨%f6, %hf6, H6⟩, ⟨%f7, %hf7, H7⟩, ⟨%f8, %hf8, H8⟩, ⟨%f9, %hf9, H9⟩, Hk⟩
    obtain rfl := h3.eq_unread hf0; obtain rfl := h4.eq_unread hf1; obtain rfl := h5.eq_unread hf5
    obtain rfl := h6.eq_unread hf6; obtain rfl := h7.eq_unread hf7; obtain rfl := h8.eq_unread hf8; obtain rfl := h9.eq_unread hf9
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    iexists _; isplitr; · ipureintro; exact h9.read_unread _
    iexact H9

end Cert.KernelIdeal.Attn

end
-- ==== Proof.IdealFrame.Pieces.lean ====
/-
  What one grid point of the attention kernel leaves in the output tile's buffer and in the scratch buffer, read
  back from the stores its run performs: after a FIRST point (key tile 0) both are stored whole; after a LIVE point
  the output tile is; the stores cover their buffers, so what the buffers held before does not show.
-/
import proofs.«105131_j59863254172674_2_alg».proof.Proof.IdealFrame.Entry
import proofs.«105131_j59863254172674_2_alg».proof.Proof.IdealFrame.RunFirst
import proofs.«105131_j59863254172674_2_alg».proof.Proof.IdealFrame.RunLive

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers the pipeline does not stage: the scratch buffer, at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scQ fullShare d) := by
  rw [scopedRest0_eq]; simp only [scQ, owns_whole]; try rfl

/-- One staging buffer of the result window, and the scratch buffer, as views: what they hold is stated through them. -/
abbrev VO : View sig .tc .vmem S1x512x1024 .f32 := (Memref.whole cc0_stg5_0 : Memref sig .tc .vmem S1x512x1024 .f32).view
abbrev VS : View sig .tc .vmem S512x1024 .bf16 := scQ.view

section Cases
variable (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)

/-- A first point's stores cover the output tile, -/
theorem coverFirstO (hc1 : k0_cond1 i = 1#1) (hc2 : k0_cond2 i = 1#1) (x0 x1 : Vec F S1x512x1024 .f32) (b5 b6 b7 : Vec F S1024 .f32)
    (y : S1x512x1024.Idx) : ∃ pc ∈ (runFirst c i a3 h3 a4 h4 a5 h5 a6 h6 a7 h7 a8 h8 a9 h9 hc1 hc2 x0 x1 b5 b6 b7).1, y ∈ pc.1.set :=
  View.cover_of_tiledL (runFirst c i a3 h3 a4 h4 a5 h5 a6 h6 a7 h7 a8 h8 a9 h9 hc1 hc2 x0 x1 b5 b6 b7).1 S1x512x1024.size (by sl_kernel_rfl) y

/-- and the scratch buffer. -/
theorem coverFirstS (hc1 : k0_cond1 i = 1#1) (hc2 : k0_cond2 i = 1#1) (x0 x1 : Vec F S1x512x1024 .f32) (b5 b6 b7 : Vec F S1024 .f32)
    (y : S512x1024.Idx) : ∃ pc ∈ (runFirst c i a3 h3 a4 h4 a5 h5 a6 h6 a7 h7 a8 h8 a9 h9 hc1 hc2 x0 x1 b5 b6 b7).2.1, y ∈ pc.1.set :=
  View.cover_of_tiledL (runFirst c i a3 h3 a4 h4 a5 h5 a6 h6 a7 h7 a8 h8 a9 h9 hc1 hc2 x0 x1 b5 b6 b7).2.1 S512x1024.size (by sl_kernel_rfl) y

/-- A live point's store covers the output tile. -/
theorem coverLive (hc1 : ¬ k0_cond1 i = 1#1) (hc2 : k0_cond2 i = 1#1) (x0 x1 : Vec F S1x512x1024 .f32) (b5 b6 b7 : Vec F S1024 .f32)
    (o : Vec F S1x512x1024 .f32) (q : Vec F S512x1024 .bf16)
    (y : S1x512x1024.Idx) : ∃ pc ∈ (runLive c i a3 h3 a4 h4 a5 h5 a6 h6 a7 h7 a8 h8 a9 h9 hc1 hc2 x0 x1 b5 b6 b7 o q).1, y ∈ pc.1.set :=
  View.cover_of_tiledL (runLive c i a3 h3 a4 h4 a5 h5 a6 h6 a7 h7 a8 h8 a9 h9 hc1 hc2 x0 x1 b5 b6 b7 o q).1 S1x512x1024.size (by sl_kernel_rfl) y

/-- The output tile after a first point. -/
def outFirst (hc1 : k0_cond1 i = 1#1) (hc2 : k0_cond2 i = 1#1) (x0 x1 : Vec F S1x512x1024 .f32) (b5 b6 b7 : Vec F S1024 .f32) : Vec F S1x512x1024 .f32 :=
  VO.read (Elt F) (VO.writes (Elt F) VO.junk (runFirst c i a3 h3 a4 h4 a5 h5 a6 h6 a7 h7 a8 h8 a9 h9 hc1 hc2 x0 x1 b5 b6 b7).1)

/-- The scratch buffer after a first point. -/
def scrFirst (hc1 : k0_cond1 i = 1#1) (hc2 : k0_cond2 i = 1#1) (x0 x1 : Vec F S1x512x1024 .f32) (b5 b6 b7 : Vec F S1024 .f32) : Vec F S512x1024 .bf16 :=
  VS.read (Elt F) (VS.writes (Elt F) VS.junk (runFirst c i a3 h3 a4 h4 a5 h5 a6 h6 a7 h7 a8 h8 a9 h9 hc1 hc2 x0 x1 b5 b6 b7).2.1)

/-- The output tile after a live point that found `o` in it and `q` in the scratch buffer. -/
def outLive (hc1 : ¬ k0_cond1 i = 1#1) (hc2 : k0_cond2 i = 1#1) (x0 x1 : Vec F S1x512x1024 .f32) (b5 b6 b7 : Vec F S1024 .f32)
    (o : Vec F S1x512x1024 .f32) (q : Vec F S512x1024 .bf16) : Vec F S1x512x1024 .f32 :=
  VO.read (Elt F) (VO.writes (Elt F) VO.junk (runLive c i a3 h3 a4 h4 a5 h5 a6 h6 a7 h7 a8 h8 a9 h9 hc1 hc2 x0 x1 b5 b6 b7 o q).1)

end Cases

end Cert.KernelIdeal.Attn

end
-- ==== Proof.IdealFrame.RunDead.lean ====
/-
  The body at a DEAD point (key tile past the query tile: every score is above the diagonal): neither
  conditional is taken, and the body touches no buffer.
-/
import proofs.«105131_j59863254172674_2_alg».proof.Proof.Gen.KernelIdeal.Launch
import proofs.«105131_j59863254172674_2_alg».proof.Proof.Gen.KernelIdeal.Skeleton
import proofs.«105131_j59863254172674_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a dead point the body is a return: whatever holds before holds after. -/
theorem runDead (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : ¬ k0_cond1 i = 1#1) (hc2 : ¬ k0_cond2 i = 1#1) (E : Set ℕ) (K : PUnit → sProp 𝕄) :
    K ⟨⟩ ⊢ wp frame (wpE (defs₀ (F := F)) Variants.none c none) E (cc0__attn_kernel i a3 h3 a4 h4 a5 h5 a6 h6 a7 h7 a8 h8 a9 h9) K := by
  simp only [cc0__attn_kernel_eq_skeleton]; unfold cc0__attn_kernel_skel
  iintro Hk
  sl_exec (disch := first | exact hc1 | exact hc2)
  sl_step
  iexact Hk

end Cert.KernelIdeal.Attn

end
-- ==== Proof.IdealFrame.Carry.lean ====
/-
  The attention kernel point by point: what the output tile's staging buffer and the scratch buffer hold after
  each grid point, the region's invariant, the proof data, and the body obligation.

  After a FIRST point (key tile 0) the scratch holds the query tile's signs and the output tile key tile 0's
  contribution added to zero; after a LIVE point the output tile has that key tile's contribution added and the
  scratch is as before; a DEAD point changes neither. The output tile is written back after key tile 3, at a
  point that may be dead: its buffer then still holds what the last live point left, which is why the
  contents are carried through the dead points.
-/
import proofs.«105131_j59863254172674_2_alg».proof.Proof.IdealFrame.Entry
import proofs.«105131_j59863254172674_2_alg».proof.Proof.IdealFrame.RunFirst
import proofs.«105131_j59863254172674_2_alg».proof.Proof.IdealFrame.RunLive
import proofs.«105131_j59863254172674_2_alg».proof.Proof.IdealFrame.Pieces
import proofs.«105131_j59863254172674_2_alg».proof.Proof.IdealFrame.RunDead

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Point by point -/

/-- What point `t` makes of the output tile's and the scratch buffer's contents `prev`. -/
def stepAt (c : Dev nD) (t : Fin cfg0.N) (prev : Vec F S1x512x1024 .f32 × Vec F S512x1024 .bf16) :
    Vec F S1x512x1024 .f32 × Vec F S512x1024 .bf16 :=
  if h0 : t.val % 4 = 0 then
    (outFirst c (grid0.coords t) (ms0 t) (hs0 t) (ms1 t) (hs1 t) (ms2 t) (hs2 t) (ms3 t) (hs3 t) (ms4 t) (hs4 t) (ms5 t) (hs5 t) scQ (Memref.isWhole_whole _) ((hcond1 t).mpr h0) ((hcond2 t).mpr (by omega)) (iblk m c 0 t) (iblk m c 1 t) (iblk m c 2 t) (iblk m c 3 t) (iblk m c 4 t),
     scrFirst c (grid0.coords t) (ms0 t) (hs0 t) (ms1 t) (hs1 t) (ms2 t) (hs2 t) (ms3 t) (hs3 t) (ms4 t) (hs4 t) (ms5 t) (hs5 t) scQ (Memref.isWhole_whole _) ((hcond1 t).mpr h0) ((hcond2 t).mpr (by omega)) (iblk m c 0 t) (iblk m c 1 t) (iblk m c 2 t) (iblk m c 3 t) (iblk m c 4 t))
  else if h1 : t.val % 4 ≤ t.val / 4 % 4 then
    (outLive c (grid0.coords t) (ms0 t) (hs0 t) (ms1 t) (hs1 t) (ms2 t) (hs2 t) (ms3 t) (hs3 t) (ms4 t) (hs4 t) (ms5 t) (hs5 t) scQ (Memref.isWhole_whole _) (fun h => h0 ((hcond1 t).mp h)) ((hcond2 t).mpr h1) (iblk m c 0 t) (iblk m c 1 t) (iblk m c 2 t) (iblk m c 3 t) (iblk m c 4 t) prev.1 prev.2, prev.2)
  else prev

/-- THE ACCUMULATION: the output tile's buffer and the scratch buffer after the body at position `n`. -/
def outsAt (c : Dev nD) : (n : ℕ) → n < cfg0.N → Vec F S1x512x1024 .f32 × Vec F S512x1024 .bf16
  | 0, hn => stepAt m c ⟨0, hn⟩ (VO.read (Elt F) VO.junk, VS.read (Elt F) VS.junk)
  | n + 1, hn => stepAt m c ⟨n + 1, hn⟩ (outsAt c n (Nat.lt_of_succ_lt hn))

theorem outsAt_succ (c : Dev nD) (n : ℕ) (hn : n + 1 < cfg0.N) :
    outsAt m c (n + 1) hn = stepAt m c ⟨n + 1, hn⟩ (outsAt m c n (Nat.lt_of_succ_lt hn)) := rfl

/-- After a point that is not the first of all: the step over what the point before left. -/
theorem outsAt_pos (c : Dev nD) (t : Fin cfg0.N) (ht : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl ht
  | succ n => rfl

/-- At a first point what came before does not matter. -/
theorem stepAt_first (c : Dev nD) (t : Fin cfg0.N) (h0 : t.val % 4 = 0) (prev prev' : Vec F S1x512x1024 .f32 × Vec F S512x1024 .bf16) :
    stepAt m c t prev = stepAt m c t prev' := by
  unfold stepAt; rw [dif_pos h0, dif_pos h0]

theorem outsAt_first (c : Dev nD) (t : Fin cfg0.N) (h0 : t.val % 4 = 0) (prev : Vec F S1x512x1024 .f32 × Vec F S512x1024 .bf16) :
    outsAt m c t.val t.isLt = stepAt m c t prev := by
  obtain ⟨n, hn⟩ := t
  cases n with
  | zero => exact stepAt_first m c _ h0 _ _
  | succ n => exact stepAt_first m c _ h0 _ _

/-- The region invariant before position `n`: before the first point the scratch buffer at anything, afterwards at what
    the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scQ fullShare (outsAt m c n hn).2

theorem PhiS_succ (c : Dev nD) (n : ℕ) (hn : n < cfg0.N) :
    PhiS m c (n + 1) hn = owns (c : Thread nD τ) scQ fullShare (outsAt m c n hn).2 := rfl

theorem PhiS_pos (c : Dev nD) (n : ℕ) (h : n ≤ cfg0.N) (hz : n ≠ 0) :
    PhiS m c n h = owns (c : Thread nD τ) scQ fullShare (outsAt m c (n - 1) (by omega)).2 := by
  cases n with
  | zero => exact absurd rfl hz
  | succ n => rfl

/-! ## The proof data -/

/-- The proof data on core `c`: the arrays as the region finds them; after the body each input's buffer at its block
    and the output tile's at the accumulation; the invariant above; x's share halved between the query window and
    the key window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

/-! ## What each buffer holds when the body runs -/

/-- An input's current staging buffer holds its block at every point, fetched there or not: where it is not fetched
    its block index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- The output tile is not written back after key tiles 0, 1, 2. -/
theorem noFlush5 : ∀ t : Fin cfg0.N, t.val % 4 ≠ 3 → (cfg0.win 5).flush t = false := fun t h => by
  have := (flush0_5 t).not.mpr h; simpa using this

/-- The output tile's buffer at a point past key tile 0 holds what the point before left in it — the accumulator,
    carried through the dead points, which touch nothing. -/
theorem before5 (c : Dev nD) : ∀ (n : ℕ) (hn : n < cfg0.N), n % 4 ≠ 0 → ∀ d,
    (dats m 0 c).before 5 ⟨n, hn⟩ d = (outsAt m c (n - 1) (by omega)).1 := by
  intro n
  induction n using Nat.strong_induction_on with
  | _ n ih =>
    intro hn h0 d
    have hN : n < 64 := lt_of_lt_of_eq hn N_0
    have hpos : n ≠ 0 := by rintro rfl; exact h0 rfl
    have hn1 : n - 1 < cfg0.N := by omega
    rw [(dats m 0 c).before_of_pos 5 ⟨n, hn⟩ hpos ((cfg0.win 5).fetch_out rfl _) d]
    rw [noFlush5 ⟨n - 1, hn1⟩ (by show (n - 1) % 4 ≠ 3; omega), if_neg Bool.false_ne_true]
    unfold Dat.left
    by_cases hd : (n - 1) % 4 ≤ (n - 1) / 4 % 4
    · have hi : cfg0.idle 5 (grid0.coords ⟨n - 1, hn1⟩) = false := by
        have := (idle5_iff ⟨n - 1, hn1⟩).not.mpr (not_not.mpr hd); simpa using this
      split
      case h_1 hm => exact absurd (hm.symm.trans hi) (by decide)
      case h_2 hm =>
        unfold Dat.kept
        rw [Pipeline.fill_of_clip_none 5 _ (fun _ => rfl) d ((dats m 0 c).after 5 _), Window.fill_cut, after5]
    · have hi : cfg0.idle 5 (grid0.coords ⟨n - 1, hn1⟩) = true := (idle5_iff ⟨n - 1, hn1⟩).mpr hd
      split
      case h_2 hm => exact absurd (hm.symm.trans hi) (by decide)
      case h_1 hm =>
        have h0' : (n - 1) % 4 ≠ 0 := by omega
        rw [ih (n - 1) (by omega) hn1 h0' d]
        have hp' : (⟨n - 1, hn1⟩ : Fin cfg0.N).val ≠ 0 := by show n - 1 ≠ 0; omega
        rw [outsAt_pos m c ⟨n - 1, hn1⟩ hp']
        unfold stepAt
        rw [dif_neg (by show ¬ (n - 1) % 4 = 0; exact h0'), dif_neg (by show ¬ (n - 1) % 4 ≤ (n - 1) / 4 % 4; exact hd)]

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point: the inputs' buffers hold their blocks; the point's kind decides which conditionals run;
    at a first point the output tile and the scratch are stored whole; at a live point the output tile is the
    accumulator the point before left and the scratch the signs the last first point stored; at a dead point
    nothing is touched, so the accumulator and the scratch pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 64 := lt_of_lt_of_eq t.isLt (show cfg0.N = 64 from N_0)
  by_cases h0 : t.val % 4 = 0
  · have h2 : t.val % 4 ≤ t.val / 4 % 4 := by omega
    have hi5 : cfg0.idle 5 (grid0.coords t) = false := by
      have := (idle5_iff t).not.mpr (not_not.mpr h2); simpa using this
    rw [show (dats m 0 c).leavesExact 5 t = owns (c : Thread nD τ) (ms5 t) fullShare ((dats m 0 c).after 5 t) from by
      unfold Dat.leavesExact; rw [hi5], after5]
    rw [outsAt_first m c t h0 (VO.read (Elt F) VO.junk, VS.read (Elt F) VS.junk)]
    unfold stepAt; rw [dif_pos h0]; dsimp only
    unfold outFirst scrFirst
    by_cases hz : t.val = 0
    · rw [PhiS_castSucc m c t, PhiS_zero m c _ _ hz, scoped_eq]
      iintro ⟨HS, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcond1 t).mpr h0) ((hcond2 t).mpr h2) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%e9, HS⟩⟩
      isplitl [HS]
      · unfold owns; iexists _; isplitr
        swap; · iexact HS
        ipureintro; exact View.read_writes_of_cover _ _ _ _ _ (coverFirstS c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFirstO c _ _ _ _ _ _ _ _ _ _ _ _ _ _ _ _ _ _ _ _ _ _)
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcond1 t).mpr h0) ((hcond2 t).mpr h2) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%e9, HS⟩⟩
      isplitl [HS]
      · unfold owns; iexists _; isplitr
        swap; · iexact HS
        ipureintro; exact View.read_writes_of_cover _ _ _ _ _ (coverFirstS c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFirstO c _ _ _ _ _ _ _ _ _ _ _ _ _ _ _ _ _ _ _ _ _ _)
  · have hz : t.val ≠ 0 := by omega
    rw [PhiS_castSucc m c t, PhiS_pos m c _ _ hz]
    rw [outsAt_pos m c t hz]
    simp only [before5 m c t.val t.isLt h0]
    by_cases h1 : t.val % 4 ≤ t.val / 4 % 4
    · have hi5 : cfg0.idle 5 (grid0.coords t) = false := by
        have := (idle5_iff t).not.mpr (not_not.mpr h1); simpa using this
      rw [show (dats m 0 c).leavesExact 5 t = owns (c : Thread nD τ) (ms5 t) fullShare ((dats m 0 c).after 5 t) from by
        unfold Dat.leavesExact; rw [hi5], after5]
      rw [outsAt_pos m c t hz]
      unfold stepAt; rw [dif_neg h0, dif_pos h1]; dsimp only
      unfold outLive
      iintro ⟨HS, Ho, ⟨%d0, H0⟩, ⟨%d1, H1⟩, ⟨%d2, H2⟩, ⟨%d3, H3⟩, ⟨%d4, H4⟩, ⟨%d5, H5⟩⟩
      iapply ((runLive c (grid0.coords t) _ _ _ _ _ _ _ _ _ _ _ _ _ _ (fun h => h0 ((hcond1 t).mp h)) ((hcond2 t).mpr h1) (iblk m c 0 t) (iblk m c 1 t) (iblk m c 2 t) (iblk m c 3 t) (iblk m c 4 t)
        (outsAt m c (t.val - 1) (Nat.lt_of_le_of_lt (Nat.sub_le _ _) t.isLt)).1 (outsAt m c (t.val - 1) (Nat.lt_of_le_of_lt (Nat.sub_le _ _) t.isLt)).2).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, ⟨%e5, H5⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLive c _ _ _ _ _ _ _ _ _ _ _ _ _ _ _ _ _ _ _ _ _ _ _ _)
    · have hi5 : cfg0.idle 5 (grid0.coords t) = true := (idle5_iff t).mpr h1
      unfold stepAt; rw [dif_neg h0, dif_neg h1]
      iintro ⟨HS, Ho, ⟨%d0, H0⟩, ⟨%d1, H1⟩, ⟨%d2, H2⟩, ⟨%d3, H3⟩, ⟨%d4, H4⟩, ⟨%d5, H5⟩⟩
      iapply (runDead c (grid0.coords t) _ _ _ _ _ _ _ _ _ _ _ _ _ _ (fun h => h0 ((hcond1 t).mp h)) (fun h => h1 ((hcond2 t).mp h)) Set.univ _)
      isplitl [HS]; · iexact HS
      isplitl [Ho]; · iexact Ho
      isplitl [H0]; · iexact H0
      isplitl [H1]; · iexact H1
      isplitl [H2]; · iexact H2
      isplitl [H3]; · iexact H3
      isplitl [H4]; · iexact H4
      by_cases hf : (cfg0.win 5).flush t = true
      · rw [show (dats m 0 c).leavesExact 5 t = owns (c : Thread nD τ) (ms5 t) fullShare ((dats m 0 c).after 5 t) from by
          unfold Dat.leavesExact; rw [hi5, hf], after5, outsAt_pos m c t hz]
        unfold stepAt; rw [dif_neg h0, dif_neg h1]
        iexact H5
      · rw [Dat.leavesExact_idle (dats m 0 c) 5 t hi5 (by simpa using hf)]
        iexists (fun _ => Classical.arbitrary _)
        rw [before5 m c t.val t.isLt h0]
        iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- and after the last point the invariant gives it back: what the scratch holds is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro HS
  iexists _; iexact HS

end Cert.KernelIdeal.Attn

end
-- ==== Proof.IdealFrame.Launch.lean ====
/-
  The launch of the attention region, for any proof data.

  Two of the region's windows — the query tile and the key tile — read the SAME array x, so the array's full
  share cannot be given to each: it is split in two halves, the query window holding the left and the key
  window the right. Both only read, so half a share is all either needs. The three sign vectors and the
  result each have an array of their own, held at the full share. The scratch buffer that keeps the query signs
  is the one scoped buffer the pipeline does not stage: it enters the body's invariant at some contents and
  leaves it at some contents. The bias vectors bypass the region and are read back unchanged.
-/
import proofs.«105131_j59863254172674_2_alg».proof.Proof.IdealFrame.Entry
import proofs.«105131_j59863254172674_2_alg».proof.Proof.IdealFrame.Pieces
import Idealize.ShloMosaic.Lib.Pipeline.Frame

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's array, held as the proof data states it, is the buffer behind it held whole. -/
theorem array_eq (c : Dev nD) (dat : Dat τ (Elt F) Unit ℕ (UR sig nD τ) ℕ cfg0 c)
    (hA : ∀ w, dat.A w = V m c (Pipeline.arrRef spec0 w)) (w : Fin cfg0.W) :
    (((cfg0.win w).arr.view.loc (c.tc : Thread nD τ)) ↦[(cfg0.win w).arr.view.set]{dat.share w} dat.arrAt w 0 : sProp 𝕄)
      = (((c.tc : Thread nD τ).loc (Pipeline.arrRef spec0 w)) ↦{dat.share w} V m c (Pipeline.arrRef spec0 w)) := by
  rw [(arr_whole0 w).set_eq_univ, show dat.arrAt w 0 = V m c (Pipeline.arrRef spec0 w) from hA w]

/-- The five distinct buffers behind the six windows' arrays, each whole at the full share, are the windows'
    arrays at the shares the proof data names: x's share halved between the query and the key window. -/
theorem split_arrays (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare)
    (hA : ∀ w, dat.A w = V m c (Pipeline.arrRef spec0 w)) :
    (Pipeline.arrBufs spec0 c (V m c) : sProp 𝕄) ⊢ dat.arrays (dat.arrAt · 0) := by
  unfold Pipeline.arrBufs Dat.arrays
  rw [bigSep_W0]
  beta_reduce
  rw [array_eq m c dat hA 0, array_eq m c dat hA 1, array_eq m c dat hA 2, array_eq m c dat hA 3, array_eq m c dat hA 4, array_eq m c dat hA 5]
  have h0 : dat.share 0 = fullShare.left := by unfold Dat.share; exact (if_neg (by decide)).trans hq0
  have h1 : dat.share 1 = fullShare.right := by unfold Dat.share; exact (if_neg (by decide)).trans hq1
  have h2 : dat.share 2 = fullShare := by unfold Dat.share; exact (if_neg (by decide)).trans hq2
  have h3 : dat.share 3 = fullShare := by unfold Dat.share; exact (if_neg (by decide)).trans hq3
  have h4 : dat.share 4 = fullShare := by unfold Dat.share; exact (if_neg (by decide)).trans hq4
  have h5 : dat.share 5 = fullShare := by unfold Dat.share; exact if_pos (by decide)
  rw [h0, h1, h2, h3, h4, h5]
  rw [show (Finset.univ.image (Pipeline.arrRef spec0) : Finset (Ref sig .tc))
      = {Pipeline.arrRef spec0 0, Pipeline.arrRef spec0 2, Pipeline.arrRef spec0 3, Pipeline.arrRef spec0 4, Pipeline.arrRef spec0 5} from by decide,
    BI.bigSep_insert (by decide), BI.bigSep_insert (by decide), BI.bigSep_insert (by decide), BI.bigSep_insert (by decide), BI.bigSep_singleton]
  have hsp : (((c.tc : Thread nD τ).loc (Pipeline.arrRef spec0 0)) ↦{fullShare} V m c (Pipeline.arrRef spec0 0) : sProp 𝕄)
      = iprop((((c.tc : Thread nD τ).loc (Pipeline.arrRef spec0 0)) ↦{fullShare.left} V m c (Pipeline.arrRef spec0 0))
          ∗ (((c.tc : Thread nD τ).loc (Pipeline.arrRef spec0 0)) ↦{fullShare.right} V m c (Pipeline.arrRef spec0 0))) :=
    BI.Entails.antisymm (pointsTo_share (PosShare.mem_left_op_right fullShare)).1 (pointsTo_share (PosShare.mem_left_op_right fullShare)).2
  rw [hsp]
  show (iprop(((((c.tc : Thread nD τ).loc (Pipeline.arrRef spec0 0)) ↦{fullShare.left} V m c (Pipeline.arrRef spec0 0))
          ∗ (((c.tc : Thread nD τ).loc (Pipeline.arrRef spec0 0)) ↦{fullShare.right} V m c (Pipeline.arrRef spec0 0)))
      ∗ (((c.tc : Thread nD τ).loc (Pipeline.arrRef spec0 2)) ↦{fullShare} V m c (Pipeline.arrRef spec0 2))
      ∗ (((c.tc : Thread nD τ).loc (Pipeline.arrRef spec0 3)) ↦{fullShare} V m c (Pipeline.arrRef spec0 3))
      ∗ (((c.tc : Thread nD τ).loc (Pipeline.arrRef spec0 4)) ↦{fullShare} V m c (Pipeline.arrRef spec0 4))
      ∗ (((c.tc : Thread nD τ).loc (Pipeline.arrRef spec0 5)) ↦{fullShare} V m c (Pipeline.arrRef spec0 5))) : sProp 𝕄) ⊢ _
  iintro ⟨⟨Ha, Hb⟩, H1, H2, H3, H4⟩
  isplitl [Ha]; · iexact Ha
  isplitl [Hb]; · iexact Hb
  isplitl [H1]; · iexact H1
  isplitl [H2]; · iexact H2
  isplitl [H3]; · iexact H3
  iexact H4

/-- THE FRAME RUN of the attention program, for any proof data that halves x's share between the query and the key
    window, owes nothing, starts from the arrays as the region finds them, and whose invariant is entered from,
    and left to, the scratch buffer at some contents: every weakly fair execution of @main terminates without a
    fault, each window's array ends at what the write-backs leave in it, and every buffer that bypasses the region
    ends as the region found it. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare) (hq4 : ∀ c, (dats 0 c).q 4 = fullShare)
    (howed : ∀ c t, (dats 0 c).owed t = 0)
    (hA : ∀ c w, (dats 0 c).A w = V m c (Pipeline.arrRef spec0 w))
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run defs (onTc (τ := τ) (main (F := F))) (s₀ m ρ) (Pipeline.FramePost cfgs dats 0 (V m)) :=
  Pipeline.θ_run_region_noSem_shared cfgs dats () cellOf_inj (0 : Fin 1) winFacts₀0 emb₁ defs₀ Variants.none m ρ main
    hbody block_pos0 arr_whole0 stage_whole0 howed
    (u₀ := initOf (Pipeline.cells cfgs cellOf_inj) (Pipeline.launchToks cfgs cellOf_inj))
    (hu₀ := .rfl)
    (V := V m) (hmain := hmain m Variants.none)
    (hsplit := fun c => split_arrays m c (dats 0 c) (hq0 c) (hq1 c) (hq2 c) (hq3 c) (hq4 c) (hA c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin c); iexact H)
    (hout := fun c => by
      iintro H
      isplitr; · iempintro
      iapply (hout c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Attn

end
-- ==== Proof.IdealFrame.Frame.lean ====
/-
  The frame of the attention program: the launch applied to the proof data. Every weakly fair execution of @main
  terminates without a fault and leaves the four argument arrays as they were; the result array ends at what the
  write-backs of the output tile leave in it.
-/
import proofs.«105131_j59863254172674_2_alg».proof.Proof.IdealFrame.Carry
import proofs.«105131_j59863254172674_2_alg».proof.Proof.IdealFrame.Launch

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- Every weakly fair execution of @main terminates without a fault; each window's array ends at what the
    write-backs leave in it and every bypassing buffer as the region found it. -/
theorem run_main : θ_run defs (onTc (τ := τ) (main (F := F))) (s₀ m ρ) (Pipeline.FramePost cfgs (dats m) 0 (V m)) :=
  run_of m ρ (dats m) (fun c => (body_obligation m c).loose) (fun _ => rfl) (fun _ => rfl) (fun _ => rfl) (fun _ => rfl) (fun _ => rfl)
    (fun _ _ => rfl) (A_eq m) (hin m) (hout m)

/-- THE FRAME: the four argument arrays end as they were. The array x is the (input) query window's array; the three
    bias vectors bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of _ rfl (by decide))).trans (V_main_arg1 m c),
     ((h c).2 main_arg2 (Pipeline.mem_restRefs_of _ rfl (by decide))).trans (V_main_arg2 m c),
     ((h c).2 main_arg3 (Pipeline.mem_restRefs_of _ rfl (by decide))).trans (V_main_arg3 m c)⟩) (run_main m ρ)

/-- The same run, with the result array named: it ends at what the write-backs of the output tile leave in it. -/
theorem run_result : θ_run defs (onTc (τ := τ) (main (F := F))) ⟨m, fun _ => 0, ρ⟩ (fun r => ∀ c : Dev nD,
      r.2.mem ((c.tc : Thread nD τ).loc main_v3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
     ((h c).1 0).trans (((dats m 0 c).arrAt_in 0 rfl _).trans ((A_eq m c 0).trans (V_main_arg0 m c))),
     ((h c).2 main_arg1 (Pipeline.mem_restRefs_of _ rfl (by decide))).trans (V_main_arg1 m c),
     ((h c).2 main_arg2 (Pipeline.mem_restRefs_of _ rfl (by decide))).trans (V_main_arg2 m c),
     ((h c).2 main_arg3 (Pipeline.mem_restRefs_of _ rfl (by decide))).trans (V_main_arg3 m c)⟩) (run_main m ρ)

end Cert.KernelIdeal.Attn

end
-- ==== Proof.IdealFrame.PieceValues.lean ====
/-
  What a grid point of the attention kernel leaves, as the body's arithmetic: the stores' payloads over what
  the loads read. A LIVE point leaves in the output tile the accumulator it found plus this key tile's contribution,
  computed from the query signs it found in the scratch buffer; a FIRST point leaves in the scratch buffer the query
  tile's signs, and in the output tile key tile 0's contribution added to the zero it has just stored there.
-/
import proofs.«105131_j59863254172674_2_alg».proof.Proof.IdealFrame.Pieces
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

section
variable (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)

/-- A live point: the accumulator plus the weights of this key tile times its values. -/
theorem outLive_eq (hc1 : ¬ k0_cond1 i = 1#1) (hc2 : k0_cond2 i = 1#1) (x0 x1 : Vec F S1x512x1024 .f32) (b5 b6 b7 : Vec F S1024 .f32)
    (o : Vec F S1x512x1024 .f32) (q : Vec F S512x1024 .bf16) :
    outLive c i a3 h3 a4 h4 a5 h5 a6 h6 a7 h7 a8 h8 a9 h9 hc1 hc2 x0 x1 b5 b6 b7 o q
      = k0_pay3 (k0_pay5 x1 b7) (k0_pay6 (BitVec.ofNat 32 (i 1).val) (BitVec.ofNat 32 (i 2).val) q x1 b6) (k0_pay7 o) := by
  unfold outLive
  rw [View.read_writes_eq_canon _ _ _ (coverLive c i a3 h3 a4 h4 a5 h5 a6 h6 a7 h7 a8 h8 a9 h9 hc1 hc2 x0 x1 b5 b6 b7 o q)]
  unfold runLive
  dsimp only
  sl_unfold_words
  rw [View.canon_unit_zero (S := S1x512x1024) hz3]
  simp only [View.readAt_eq_ld, h4.read_unread, h6.read_unread, h7.read_unread, h8.read_unread, h9.read_unread,
    View.ld_unit_zero (S := S1x512x1024) hz3, View.ld_unit_zero (S := S1024) hz1, View.ld_unit_zero (S := S512x1024) hz2]

/-- A first point leaves the query tile's signs in the scratch buffer, -/
theorem scrFirst_eq (hc1 : k0_cond1 i = 1#1) (hc2 : k0_cond2 i = 1#1) (x0 x1 : Vec F S1x512x1024 .f32) (b5 b6 b7 : Vec F S1024 .f32) :
    scrFirst c i a3 h3 a4 h4 a5 h5 a6 h6 a7 h7 a8 h8 a9 h9 hc1 hc2 x0 x1 b5 b6 b7 = k0_pay2 x0 b5 := by
  unfold scrFirst
  rw [View.read_writes_eq_canon _ _ _ (coverFirstS c i a3 h3 a4 h4 a5 h5 a6 h6 a7 h7 a8 h8 a9 h9 hc1 hc2 x0 x1 b5 b6 b7)]
  unfold runFirst
  dsimp only
  sl_unfold_words
  rw [View.canon_unit_zero (S := S512x1024) hz2]
  simp only [View.readAt_eq_ld, h3.read_unread, h5.read_unread,
    View.ld_unit_zero (S := S1x512x1024) hz3, View.ld_unit_zero (S := S1024) hz1]

/-- and in the output tile key tile 0's contribution added to zero. -/
theorem outFirst_eq (hc1 : k0_cond1 i = 1#1) (hc2 : k0_cond2 i = 1#1) (x0 x1 : Vec F S1x512x1024 .f32) (b5 b6 b7 : Vec F S1024 .f32) :
    outFirst c i a3 h3 a4 h4 a5 h5 a6 h6 a7 h7 a8 h8 a9 h9 hc1 hc2 x0 x1 b5 b6 b7
      = k0_pay3 (k0_pay5 x1 b7) (k0_pay6 (BitVec.ofNat 32 (i 1).val) (BitVec.ofNat 32 (i 2).val) (k0_pay2 x0 b5) x1 b6) (k0_pay7 (k0_pay1 (F := F))) := by
  unfold outFirst
  rw [View.read_writes_eq_canon _ _ _ (coverFirstO c i a3 h3 a4 h4 a5 h5 a6 h6 a7 h7 a8 h8 a9 h9 hc1 hc2 x0 x1 b5 b6 b7)]
  unfold runFirst
  dsimp only
  rw [View.canon_cons_unit_zero (S := S1x512x1024) hz3]
  sl_unfold_words
  rw [View.readCov_unit_zero (S := S512x1024) _ hz2, View.readCov_unit_zero (S := S1x512x1024) _ hz3]
  simp only [View.readAt_eq_ld, h3.read_unread, h4.read_unread, h5.read_unread, h6.read_unread, h7.read_unread,
    View.ld_unit_zero (S := S1x512x1024) hz3, View.ld_unit_zero (S := S1024) hz1]
end

end Cert.KernelIdeal.Attn

end
-- ==== Proof.AttnPayPointwise.lean ====
/-
  The kernel's pointwise payloads read at an index, at the ideal values: the zero block the accumulator starts
  from, the loaded blocks viewed as matrices, the binarised query block (the sign of an activation times a
  per-feature factor) and the value block (an activation times a per-feature factor).
-/
import proofs.«105131_j59863254172674_2_alg».proof.Proof.Gen.KernelIdeal.Skeleton
import Idealize.ShloMosaic.Lib.ValueLayout
import Idealize.ShloMosaic.PureOps.Ideal.Laws

noncomputable section

namespace Cert.KernelIdeal.AttnPay

open Cert.KernelIdeal Cert.KernelIdeal.Gen Idealize.ShloMosaic Idealize.ShloMosaic.ValueIdx

/-- The sign computed through the sign bit, the absolute value and two selects, over a whole vector and read at
    one index: the sign of that element, on every extended real. -/
theorem signTerm_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

/-- A per-feature vector laid out as one row and repeated down the rows reads, at `(p, e)`, its entry `e`. -/
theorem featureRow_apply (v : Vec Ideal S1024 .f32) (p : Fin 512) (e : Fin 1024) :
    broadcastTo S512x1024 (shapeCast S1x1024 (shapeCast S1024 v shapeCasts_S1024_S1024) shapeCasts_S1024_S1x1024)
        broadcasts_S1x1024_S512x1024 (ix2 p e)
      = v (ix1 e) := by
  rw [broadcastTo_1b_ab_apply, shapeCast_a_1a_apply, shapeCast_self]

/-- The accumulator's starting block is zero everywhere. -/
theorem pay1_apply (p : Fin 512) (d : Fin 1024) : k0_pay1 (F := Ideal) (ix3 0 p d) = 0 := by
  unfold k0_pay1
  rw [shapeCast_ab_1ab_apply]
  exact Ideal.ofBits_zero_f32

/-- A loaded `[1, 512, 1024]` block viewed as a matrix reads, at `(p, e)`, the block at `(0, p, e)`. -/
theorem pay4_apply (v7 : Vec Ideal S1x512x1024 .f32) (p : Fin 512) (e : Fin 1024) :
    k0_pay4 (F := Ideal) v7 (ix2 p e) = v7 (ix3 0 p e) := by
  unfold k0_pay4
  exact shapeCast_1ab_ab_apply v7 _ p e

/-- The accumulator block viewed as a matrix reads, at `(p, d)`, the block at `(0, p, d)`. -/
theorem pay7_apply (v49 : Vec Ideal S1x512x1024 .f32) (p : Fin 512) (d : Fin 1024) :
    k0_pay7 (F := Ideal) v49 (ix2 p d) = v49 (ix3 0 p d) := by
  unfold k0_pay7
  exact shapeCast_1ab_ab_apply v49 _ p d

/-- The binarised query block: at `(p, e)` the sign of the activation times the per-feature factor. -/
theorem pay2_apply (v10 : Vec Ideal S1x512x1024 .f32) (v12 : Vec Ideal S1024 .f32) (p : Fin 512) (e : Fin 1024) :
    k0_pay2 (F := Ideal) v10 v12 (ix2 p e) = Ideal.sign (v10 (ix3 0 p e) * v12 (ix1 e)) := by
  unfold k0_pay2
  rw [shapeCast_self, truncf_apply, signTerm_apply, mulf_apply, shapeCast_1ab_ab_apply, featureRow_apply]

/-- The value block: at `(k, d)` the activation times the per-feature factor. -/
theorem pay5_apply (v7 : Vec Ideal S1x512x1024 .f32) (v25 : Vec Ideal S1024 .f32) (k : Fin 512) (d : Fin 1024) :
    k0_pay5 (F := Ideal) v7 v25 (ix2 k d) = v7 (ix3 0 k d) * v25 (ix1 d) := by
  unfold k0_pay5
  rw [truncf_apply, mulf_apply, pay4_apply, featureRow_apply]

end Cert.KernelIdeal.AttnPay

end
-- ==== Proof.AttnPayMatmul.lean ====
/-
  The kernel's two block products read at an index, at the ideal values, and the accumulation step built on the
  second. The score product contracts the feature axis of BOTH operands (a matrix times a transposed matrix); the
  accumulation product is the plain one. Each is the sum, over the contracted coordinate, of the operands' products.
-/
import proofs.«105131_j59863254172674_2_alg».proof.Proof.Gen.KernelIdeal.Skeleton
import Idealize.ShloMosaic.Lib.ValueLayout
import Idealize.ShloMosaic.PureOps.Ideal.Laws

noncomputable section

open scoped BigOperators

namespace Cert.KernelIdeal.AttnPay

open Cert.KernelIdeal Cert.KernelIdeal.Gen Idealize.ShloMosaic Idealize.ShloMosaic.ValueIdx

/-! ## The plain product: `[512, 512] × [512, 1024]` -/

/-- The left operand's row coordinate is the output's row. -/
theorem nn_lhs0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
/-- The left operand's column coordinate is the contracted one. -/
theorem nn_lhs1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
/-- The right operand's row coordinate is the contracted one. -/
theorem nn_rhs0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
/-- The right operand's column coordinate is the output's column. -/
theorem nn_rhs1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The plain product into the zero block, read at `(p, d)`: the sum over `k` of `A (p, k) · B (k, d)`. -/
theorem matmulNN_apply (A : FVec Ideal S512x512 .bf16) (B : FVec Ideal S512x1024 .bf16) (p : Fin 512) (d : Fin 1024) :
    matmul dot_S512x512_S512x1024_S512x1024_1_0_0_1_n_n none A B (constant S512x1024 .f32 0x00000000#32) (ix2 p d)
      = ∑ k : Fin 512, A (ix2 p k) * B (ix2 k d) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p d) ((contrEquiv1 dot_S512x512_S512x1024_S512x1024_1_0_0_1_n_n 512 rfl rfl).symm k) = ix2 p k := funext fun a => Fin.ext (by
    match a with
    | ⟨0, _⟩ => exact nn_lhs0 _ _
    | ⟨1, _⟩ => exact (nn_lhs1 _ _).trans hk)
  have er : dot_S512x512_S512x1024_S512x1024_1_0_0_1_n_n.rhsIdx (ix2 p d) ((contrEquiv1 dot_S512x512_S512x1024_S512x1024_1_0_0_1_n_n 512 rfl rfl).symm k) = ix2 k d := funext fun a => Fin.ext (by
    match a with
    | ⟨0, _⟩ => exact (nn_rhs0 _ _).trans hk
    | ⟨1, _⟩ => exact nn_rhs1 _ _)
  rw [el, er]

/-! ## The product with the transposed right operand: `[512, 1024] × [512, 1024]ᵀ` -/

/-- The left operand's row coordinate is the output's row. -/
theorem nt_lhs0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- The left operand's column coordinate is the contracted one. -/
theorem nt_lhs1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- The right operand's row coordinate is the output's column. -/
theorem nt_rhs0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- The right operand's column coordinate is the contracted one. -/
theorem nt_rhs1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The product with the transposed right operand into the zero block, read at `(p, k)`: the sum over the feature
    `e` of `A (p, e) · B (k, e)`. -/
theorem matmulNT_apply (A B : FVec Ideal S512x1024 .bf16) (p k : Fin 512) :
    matmul dot_S512x1024_S512x1024_S512x512_1_1_0_0_n_n none A B (constant S512x512 .f32 0x00000000#32) (ix2 p k)
      = ∑ e : Fin 1024, A (ix2 p e) * B (ix2 k e) := by
  simp only [matmul]
  rw [Ideal.matmul_constant_zero_apply, ← Equiv.sum_comp (contrEquiv1 dot_S512x1024_S512x1024_S512x512_1_1_0_0_n_n 1024 rfl rfl).symm]
  refine Finset.sum_congr rfl fun e _ => ?_
  have he := contrEquiv1_symm_val dot_S512x1024_S512x1024_S512x512_1_1_0_0_n_n 1024 rfl rfl e
  have el : dot_S512x1024_S512x1024_S512x512_1_1_0_0_n_n.lhsIdx (ix2 p k) ((contrEquiv1 dot_S512x1024_S512x1024_S512x512_1_1_0_0_n_n 1024 rfl rfl).symm e) = ix2 p e := funext fun a => Fin.ext (by
    match a with
    | ⟨0, _⟩ => exact nt_lhs0 _ _
    | ⟨1, _⟩ => exact (nt_lhs1 _ _).trans he)
  have er : dot_S512x1024_S512x1024_S512x512_1_1_0_0_n_n.rhsIdx (ix2 p k) ((contrEquiv1 dot_S512x1024_S512x1024_S512x512_1_1_0_0_n_n 1024 rfl rfl).symm e) = ix2 k e := funext fun a => Fin.ext (by
    match a with
    | ⟨0, _⟩ => exact nt_rhs0 _ _
    | ⟨1, _⟩ => exact (nt_rhs1 _ _).trans he)
  rw [el, er]

/-! ## The accumulation step -/

/-- The block stored back into the accumulator: at `(0, p, d)` the accumulator's entry plus the sum over the key
    rows `k` of the weight `(p, k)` times the value entry `(k, d)`. -/
theorem pay3_apply (v30 : FVec Ideal S512x1024 .bf16) (v48 : FVec Ideal S512x512 .bf16) (v50 : FVec Ideal S512x1024 .f32)
    (p : Fin 512) (d : Fin 1024) :
    k0_pay3 (F := Ideal) v30 v48 v50 (ix3 0 p d) = v50 (ix2 p d) + ∑ k : Fin 512, v48 (ix2 p k) * v30 (ix2 k d) := by
  unfold k0_pay3
  rw [shapeCast_ab_1ab_apply, addf_apply, matmulNN_apply]

end Cert.KernelIdeal.AttnPay

end
-- ==== Proof.AttnSpec.lean ====
/-
  The specification both programs are proved against: binarised causal attention with a sigmoid weight,
  written index by index on the extended reals.

  Inputs: activations `x[b, t, e]` (4 sequences, 2048 positions, 1024 features) and three per-feature vectors
  `bq, bk, bv`. With `sg` the sign function (values in {-1, 0, 1}):

    * the score of query position `t` against key position `s` is the integer-valued sum
        `score b t s = ∑ e, sg (x[b,t,e] · sg bq[e]) · sg (x[b,s,e] · sg bk[e])`;
    * the weight is causal: `weight b t s = logistic (score b t s · 1/8)` when `s ≤ t`, and `0` when `s > t`
      (the factor `1/8` is `1024^(-1/2) · 4`);
    * the result is `attend[b,t,d] = ∑ s, weight b t s · (x[b,s,d] · sg bv[d])`.

  No program is imported here: the module only fixes the function.
-/
import Idealize.ShloMosaic.PureOps.Ideal
import Idealize.ShloMosaic.Lib.ValueIdx

noncomputable section

open scoped BigOperators

namespace Cert.Attn

open Idealize.ShloMosaic Idealize.ShloMosaic.ValueIdx

/-- The activations' shape: 4 sequences, 2048 positions, 1024 features. -/
abbrev SX : Shape := ⟨3, ![4, 2048, 1024]⟩
/-- The shape of a per-feature vector. -/
abbrev SB : Shape := ⟨1, ![1024]⟩

/-- The float literal `0.125`: the scale `1024^(-1/2) = 1/32` times the sigmoid's slope `4`. -/
abbrev c8 : EReal := Ideal.ofBits .f32 0x3E000000#32

/-- The score of query position `t` against key position `s` in sequence `b`: the dot product over the features
    of the binarised query and key entries. -/
def score (x : FVec Ideal SX .f32) (bq bk : FVec Ideal SB .f32) (b : Fin 4) (t s : Fin 2048) : EReal :=
  ∑ e : Fin 1024, Ideal.sign (x (ix3 b t e) * Ideal.sign (bq (ix1 e))) * Ideal.sign (x (ix3 b s e) * Ideal.sign (bk (ix1 e)))

/-- The causal sigmoid weight: position `t` attends to the positions `s ≤ t` only. -/
def weight (x : FVec Ideal SX .f32) (bq bk : FVec Ideal SB .f32) (b : Fin 4) (t s : Fin 2048) : EReal :=
  if s ≤ t then Ideal.logistic (score x bq bk b t s * c8) else 0

/-- One entry of the result: the weighted sum over key positions of the value entries `x[b,s,d] · sg bv[d]`. -/
def attendAt (x : FVec Ideal SX .f32) (bq bk bv : FVec Ideal SB .f32) (b : Fin 4) (t : Fin 2048) (d : Fin 1024) : EReal :=
  ∑ s : Fin 2048, weight x bq bk b t s * (x (ix3 b s d) * Ideal.sign (bv (ix1 d)))

/-- The result array as one function of the four argument arrays. -/
def attend (x : FVec Ideal SX .f32) (bq bk bv : FVec Ideal SB .f32) : FVec Ideal SX .f32 :=
  fun i => attendAt x bq bk bv (i 0) (i 1) (i 2)

/-- The result at an index given by its coordinates. -/
theorem attend_ix3 (x : FVec Ideal SX .f32) (bq bk bv : FVec Ideal SB .f32) (b : Fin 4) (t : Fin 2048) (d : Fin 1024) :
    attend x bq bk bv (ix3 b t d) = attendAt x bq bk bv b t d := rfl

end Cert.Attn

end
-- ==== Proof.AttnPayWeight.lean ====
/-
  The kernel's masked weight block read at an index, at the ideal values. For the query block `qi` and the key
  block `ki` of 512 positions each, the entry at `(p, k)` is the sigmoid of the scaled score of query row `p`
  against key row `k` — the sum over the features of the query entry times the binarised key entry — when the key
  position `512 ki + k` is not after the query position `512 qi + p`, and zero otherwise.
-/
import proofs.«105131_j59863254172674_2_alg».proof.Proof.AttnPayPointwise
import proofs.«105131_j59863254172674_2_alg».proof.Proof.AttnPayMatmul
import proofs.«105131_j59863254172674_2_alg».proof.Proof.AttnSpec
import Idealize.ShloMosaic.Lib.WordArith

noncomputable section

open scoped BigOperators

namespace Cert.KernelIdeal.AttnPay

open Cert.KernelIdeal Cert.KernelIdeal.Gen Idealize.ShloMosaic Idealize.ShloMosaic.ValueIdx

/-! ## Pointwise operations at an index -/

/-- A sigmoid over a vector reads, at an index, the sigmoid of the element. -/
theorem logistic_apply {s : Shape} {φ : FTy} (x : FVec Ideal s φ) (i : s.Idx) : logistic x i = Ideal.logistic (x i) := rfl
/-- An integer comparison over vectors compares the elements. -/
theorem cmpi_apply {s : Shape} {w : Nat} (pr : CmpIPredicate) (x y : IVec s w) (i : s.Idx) :
    cmpi pr x y i = IntOp.cmpi pr (x i) (y i) := rfl
/-- An integer sum over vectors adds the elements. -/
theorem addi_apply {s : Shape} {w : Nat} (x y : IVec s w) (i : s.Idx) : addi x y i = IntOp.addi (x i) (y i) := rfl

/-- An `[a, 1]` column repeated along the rows' entries reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row number of a `[512, 1]` column. -/
theorem iota_row_apply (p : Fin 512) (u : Fin 1) :
    iota .tc S512x1 32 [0] iota_S512x1_d0_w32 (ix2 p u) = BitVec.ofNat 32 p.val :=
  iota_single_apply .tc S512x1 32 0 _ _
/-- The column number of a `[1, 512]` row. -/
theorem iota_col_apply (u : Fin 1) (k : Fin 512) :
    iota .tc S1x512 32 [1] iota_S1x512_d1_w32 (ix2 u k) = BitVec.ofNat 32 k.val :=
  iota_single_apply .tc S1x512 32 1 _ _

/-! ## A select on a decided bit -/

/-- A select whose bit is set takes its first operand. -/
theorem select_of_bit {α : Type} (c : BitVec 1) (a b : α) (hc : c = 1#1) : Scalar.select c a b = a := by
  subst hc; exact select_one a b
/-- A select whose bit is not set takes its second operand. -/
theorem select_of_not_bit {α : Type} (c : BitVec 1) (a b : α) (hc : ¬c = 1#1) : Scalar.select c a b = b := by
  rw [eq_zero_of_ne_one hc]; exact select_zero a b

/-! ## The causal mask's bit -/

/-- A block number below 4 times 512 plus a row below 512, computed on 32-bit words, reads signed as that number:
    nothing wraps below 2048. -/
theorem position_toInt (a : Fin 4) (b : Fin 512) :
    (IntOp.addi (Scalar.muli (BitVec.ofNat 32 a.val) 512#32) (BitVec.ofNat 32 b.val)).toInt
      = ((a.val * 512 + b.val : ℕ) : ℤ) := by
  show (BitVec.ofNat 32 a.val * BitVec.ofNat 32 512 + BitVec.ofNat 32 b.val).toInt = _
  rw [← BitVec.ofNat_mul, ← BitVec.ofNat_add]
  exact WordArith.toInt_ofNat_small _ (by have := a.isLt; have := b.isLt; omega)

/-- The mask's bit is set exactly when the key position is not after the query position. -/
theorem causal_bit (qi ki : Fin 4) (p k : Fin 512) :
    IntOp.cmpi .sge (IntOp.addi (Scalar.muli (BitVec.ofNat 32 qi.val) 512#32) (BitVec.ofNat 32 p.val))
        (IntOp.addi (Scalar.muli (BitVec.ofNat 32 ki.val) 512#32) (BitVec.ofNat 32 k.val)) = 1#1
      ↔ 512 * ki.val + k.val ≤ 512 * qi.val + p.val := by
  show BitVec.ofBool (BitVec.sle _ _) = 1#1 ↔ _
  rw [WordArith.ofBool_eq_one_iff, BitVec.sle_iff_toInt_le, position_toInt, position_toInt]
  omega

/-! ## The weight block -/

/-- The masked weight at `(p, k)`. -/
theorem pay6_apply (qi ki : Fin 4) (v6 : Vec Ideal S512x1024 .bf16) (v7 : Vec Ideal S1x512x1024 .f32)
    (v9 : Vec Ideal S1024 .f32) (p k : Fin 512) :
    k0_pay6 (F := Ideal) (BitVec.ofNat 32 qi.val) (BitVec.ofNat 32 ki.val) v6 v7 v9 (ix2 p k)
      = if 512 * ki.val + k.val ≤ 512 * qi.val + p.val then
          Ideal.logistic ((∑ e : Fin 1024, v6 (ix2 p e) * Ideal.sign (v7 (ix3 0 k e) * v9 (ix1 e))) * Cert.Attn.c8)
        else 0 := by
  unfold k0_pay6
  rw [truncf_apply, select_apply]
  simp only [cmpi_apply, addi_apply, broadcastTo_a1_ab_apply, broadcastTo_1b_ab_apply, broadcast_apply,
    logistic_apply, mulf_apply, matmulNT_apply, truncf_apply, signTerm_apply, pay4_apply, shapeCast_a_1a_apply,
    shapeCast_self]
  rw [iota_row_apply, iota_col_apply]
  by_cases h : 512 * ki.val + k.val ≤ 512 * qi.val + p.val
  · rw [if_pos h, select_of_bit _ _ _ ((causal_bit qi ki p k).mpr h)]
    rfl
  · rw [if_neg h, select_of_not_bit _ _ _ (mt (causal_bit qi ki p k).mp h)]
    exact Ideal.ofBits_zero_f32

end Cert.KernelIdeal.AttnPay

end
-- ==== Proof.AttnTiles.lean ====
/-
  The attended value split over KEY TILES of 512 positions.

  The 2048 key positions are four consecutive tiles of 512: position `512·j + k` is row `k` of tile `j`. The sum
  over all key positions that defines an entry of the result is the sum over the four tiles of each tile's partial
  sum. For a query position in tile `qi`, the tiles `j > qi` lie wholly above the diagonal: every weight there is `0`
  and so is the tile's partial sum (`0 · v = 0` on the extended reals, and a sum of zeros). Hence the partial sums
  accumulated over the tiles `0, …, n`, for any `n ≥ qi`, already give the entry. Only the commutative-monoid laws of
  addition are used: no finiteness.
-/
import proofs.«105131_j59863254172674_2_alg».proof.Proof.AttnSpec

noncomputable section

open scoped BigOperators

namespace Cert.Attn

open Idealize.ShloMosaic Idealize.ShloMosaic.ValueIdx

/-! ## Positions as (tile, row) -/

/-- Row `p` of tile `q`: position `512·q + p`. -/
def rowOf (q : Fin 4) (p : Fin 512) : Fin 2048 :=
  ⟨512 * q.val + p.val, by have := q.isLt; have := p.isLt; omega⟩

theorem rowOf_val (q : Fin 4) (p : Fin 512) : (rowOf q p).val = 512 * q.val + p.val := rfl

/-- Every position is a row of a tile: its quotient and remainder by 512. -/
theorem eq_rowOf (t : Fin 2048) :
    t = rowOf ⟨t.val / 512, by have := t.isLt; omega⟩ ⟨t.val % 512, Nat.mod_lt _ (by decide)⟩ :=
  Fin.ext (by show t.val = 512 * (t.val / 512) + t.val % 512; omega)

/-- The positions are the pairs (tile, row). -/
def tileEquiv : Fin 4 × Fin 512 ≃ Fin 2048 where
  toFun jk := rowOf jk.1 jk.2
  invFun t := (⟨t.val / 512, by have := t.isLt; omega⟩, ⟨t.val % 512, Nat.mod_lt _ (by decide)⟩)
  left_inv := fun ⟨j, k⟩ => by
    have hj := j.isLt
    have hk := k.isLt
    exact Prod.ext (Fin.ext (by show (512 * j.val + k.val) / 512 = j.val; omega))
      (Fin.ext (by show (512 * j.val + k.val) % 512 = k.val; omega))
  right_inv := fun t => Fin.ext (by show 512 * (t.val / 512) + t.val % 512 = t.val; omega)

/-- A sum over the 2048 positions is the sum over the four tiles of the sums over each tile's 512 rows. -/
theorem sum_rows {M : Type} [AddCommMonoid M] (f : Fin 2048 → M) :
    ∑ s : Fin 2048, f s = ∑ j : Fin 4, ∑ k : Fin 512, f (rowOf j k) := by
  rw [← Equiv.sum_comp tileEquiv f, Fintype.sum_prod_type]
  rfl

/-! ## One key tile's contribution -/

section
variable (x : FVec Ideal SX .f32) (bq bk bv : FVec Ideal SB .f32)

/-- What key tile `j` contributes to the entry at row `p` of query tile `qi`, feature `d`: the sum over the tile's
    rows of weight times value. -/
def tile (b qi : Fin 4) (p : Fin 512) (d : Fin 1024) (j : Fin 4) : EReal :=
  ∑ k : Fin 512, weight x bq bk b (rowOf qi p) (rowOf j k) * (x (ix3 b (rowOf j k) d) * Ideal.sign (bv (ix1 d)))

/-- The causal weight between a row of query tile `qi` and a row of key tile `j`, the order read on the naturals. -/
theorem weight_rowOf (b qi : Fin 4) (p : Fin 512) (j : Fin 4) (k : Fin 512) :
    weight x bq bk b (rowOf qi p) (rowOf j k)
      = if 512 * j.val + k.val ≤ 512 * qi.val + p.val then Ideal.logistic (score x bq bk b (rowOf qi p) (rowOf j k) * c8)
        else 0 := by
  unfold weight
  exact if_congr Fin.le_def rfl rfl

/-- A key tile past the query tile contributes nothing: all its positions are above the diagonal. -/
theorem tile_dead (b qi : Fin 4) (p : Fin 512) (d : Fin 1024) (j : Fin 4) (h : qi < j) :
    tile x bq bk bv b qi p d j = 0 := by
  unfold tile
  refine Finset.sum_eq_zero fun k _ => ?_
  have hlt : qi.val < j.val := Fin.lt_def.mp h
  have hp := p.isLt
  rw [weight_rowOf, if_neg (by omega), zero_mul]

/-- An entry of the result is the sum of the four key tiles' contributions. -/
theorem attendAt_tiles (b qi : Fin 4) (p : Fin 512) (d : Fin 1024) :
    attendAt x bq bk bv b (rowOf qi p) d = ∑ j : Fin 4, tile x bq bk bv b qi p d j := by
  unfold attendAt tile
  exact sum_rows fun s => weight x bq bk b (rowOf qi p) s * (x (ix3 b s d) * Ideal.sign (bv (ix1 d)))

/-- The result array at a row of a tile. -/
theorem attend_rowOf (b qi : Fin 4) (p : Fin 512) (d : Fin 1024) :
    attend x bq bk bv (ix3 b (rowOf qi p) d) = attendAt x bq bk bv b (rowOf qi p) d :=
  attend_ix3 x bq bk bv b (rowOf qi p) d

/-! ## Accumulating over the key tiles in order -/

/-- The contributions of the key tiles `0, …, n`. -/
def accTo (b qi : Fin 4) (p : Fin 512) (d : Fin 1024) (n : ℕ) : EReal :=
  ∑ j : Fin 4, if j.val ≤ n then tile x bq bk bv b qi p d j else 0

/-- After the first tile: zero plus that tile's contribution. -/
theorem accTo_zero (b qi : Fin 4) (p : Fin 512) (d : Fin 1024) :
    accTo x bq bk bv b qi p d 0 = 0 + tile x bq bk bv b qi p d 0 := by
  unfold accTo
  have hj : ∀ j : Fin 4, (if j.val ≤ 0 then tile x bq bk bv b qi p d j else 0)
      = if j = 0 then tile x bq bk bv b qi p d j else 0 := fun j =>
    if_congr ⟨fun h => Fin.ext (by show j.val = 0; omega), fun h => by rw [h]; exact Nat.le_refl _⟩ rfl rfl
  rw [Finset.sum_congr rfl fun j _ => hj j,
    Finset.sum_ite_eq' Finset.univ (0 : Fin 4) (fun j => tile x bq bk bv b qi p d j), if_pos (Finset.mem_univ _), zero_add]

/-- One more tile: the accumulated value plus that tile's contribution. -/
theorem accTo_succ (b qi : Fin 4) (p : Fin 512) (d : Fin 1024) (n : ℕ) (hn : n + 1 < 4) :
    accTo x bq bk bv b qi p d (n + 1) = accTo x bq bk bv b qi p d n + tile x bq bk bv b qi p d ⟨n + 1, hn⟩ := by
  unfold accTo
  have hT : tile x bq bk bv b qi p d ⟨n + 1, hn⟩
      = ∑ j : Fin 4, if j = (⟨n + 1, hn⟩ : Fin 4) then tile x bq bk bv b qi p d j else 0 := by
    rw [Finset.sum_ite_eq' Finset.univ (⟨n + 1, hn⟩ : Fin 4) (fun j => tile x bq bk bv b qi p d j),
      if_pos (Finset.mem_univ _)]
  rw [hT, ← Finset.sum_add_distrib]
  refine Finset.sum_congr rfl fun j _ => ?_
  by_cases h1 : j.val ≤ n
  · have h2 : j.val ≤ n + 1 := by omega
    have h3 : j ≠ (⟨n + 1, hn⟩ : Fin 4) := fun e => by
      have e' : j.val = n + 1 := congrArg Fin.val e
      omega
    rw [if_pos h1, if_pos h2, if_neg h3, add_zero]
  · by_cases h3 : j = (⟨n + 1, hn⟩ : Fin 4)
    · have h2 : j.val ≤ n + 1 := by rw [h3]
      rw [if_neg h1, if_pos h2, if_pos h3, zero_add]
    · have h2 : ¬ j.val ≤ n + 1 := fun h => h3 (Fin.ext (by show j.val = n + 1; omega))
      rw [if_neg h1, if_neg h2, if_neg h3, add_zero]

/-- Once the query's own tile has been added the accumulated value is the entry: the later tiles are dead. -/
theorem accTo_full (b qi : Fin 4) (p : Fin 512) (d : Fin 1024) (n : ℕ) (h : qi.val ≤ n) :
    accTo x bq bk bv b qi p d n = attendAt x bq bk bv b (rowOf qi p) d := by
  rw [attendAt_tiles]
  unfold accTo
  refine Finset.sum_congr rfl fun j _ => ?_
  by_cases h1 : j.val ≤ n
  · rw [if_pos h1]
  · rw [if_neg h1, tile_dead x bq bk bv b qi p d j (Fin.lt_def.mpr (by omega))]

end

end Cert.Attn

end
-- ==== Proof.IdealFrame.StepValues.lean ====
/-
  What one grid point adds, index by index, in terms of the specification's key tiles. A point of query tile `qi`
  that reads key tile `ki` — its key block the rows of tile `ki` of the activations, its three vectors the signs of
  the per-feature arguments, and the query tile's signs in hand — stores the accumulator it found plus key tile
  `ki`'s contribution to each entry: the weights it computes are the specification's causal weights, row by row.
-/
import proofs.«105131_j59863254172674_2_alg».proof.Proof.IdealFrame.PieceValues
import proofs.«105131_j59863254172674_2_alg».proof.Proof.AttnPayWeight
import proofs.«105131_j59863254172674_2_alg».proof.Proof.AttnTiles

set_option maxRecDepth 16384

noncomputable section

open scoped BigOperators

namespace Cert.KernelIdeal.AttnAcc

open Cert.KernelIdeal Cert.KernelIdeal.Gen Cert.KernelIdeal.Attn Cert.KernelIdeal.AttnPay
open Cert.Attn (SX SB c8 score weight rowOf tile weight_rowOf accTo accTo_zero accTo_succ accTo_full attendAt)
open Idealize.ShloMosaic Idealize.ShloMosaic.ValueIdx

/-! ## A grid point's query tile and key tile -/

/-- Grid point `t` is batch `t / 16`, query tile `t / 4 % 4`, key tile `t % 4`. -/
theorem coords12 : ∀ t : Fin cfg0.N, (grid0.coords t 1).val = t.val / 4 % 4 ∧ (grid0.coords t 2).val = t.val % 4 :=
  (by decide +kernel : ∀ t : Fin grid0.N, (grid0.coords t 1).val = t.val / 4 % 4 ∧ (grid0.coords t 2).val = t.val % 4)

/-! ## The payloads' step -/

section
variable (X : FVec Ideal SX .f32) (Bq Bk Bv : FVec Ideal SB .f32)

/-- The stored block at `(0, p, d)`: the accumulator's entry plus key tile `ki`'s contribution. -/
theorem payStep_apply (b qi ki : Fin 4) (q : Vec Ideal S512x1024 .bf16) (x1 : Vec Ideal S1x512x1024 .f32)
    (b6 b7 : Vec Ideal S1024 .f32) (acc : FVec Ideal S512x1024 .f32)
    (hq : ∀ (p : Fin 512) (e : Fin 1024), q (ix2 p e) = Ideal.sign (X (ix3 b (rowOf qi p) e) * Ideal.sign (Bq (ix1 e))))
    (hx1 : ∀ (k : Fin 512) (e : Fin 1024), x1 (ix3 (0 : Fin 1) k e) = X (ix3 b (rowOf ki k) e))
    (hb6 : ∀ e : Fin 1024, b6 (ix1 e) = Ideal.sign (Bk (ix1 e)))
    (hb7 : ∀ e : Fin 1024, b7 (ix1 e) = Ideal.sign (Bv (ix1 e)))
    (p : Fin 512) (d : Fin 1024) :
    k0_pay3 (F := Ideal) (k0_pay5 x1 b7) (k0_pay6 (BitVec.ofNat 32 qi.val) (BitVec.ofNat 32 ki.val) q x1 b6) acc (ix3 (0 : Fin 1) p d)
      = acc (ix2 p d) + tile X Bq Bk Bv b qi p d ki := by
  rw [pay3_apply]
  refine congrArg (acc (ix2 p d) + ·) ?_
  unfold tile
  refine Finset.sum_congr rfl fun k _ => ?_
  have hS : (∑ e : Fin 1024, q (ix2 p e) * Ideal.sign (x1 (ix3 (0 : Fin 1) k e) * b6 (ix1 e)))
      = score X Bq Bk b (rowOf qi p) (rowOf ki k) := by
    unfold score
    exact Finset.sum_congr rfl fun e _ => by rw [hq, hx1, hb6]
  rw [pay6_apply, pay5_apply, weight_rowOf, hS, hx1, hb7]

/-! ## What a point of each kind leaves -/

/-- A live point leaves, at `(0, p, d)`, what it found there plus its key tile's contribution. -/
theorem outLive_apply (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : ¬ k0_cond1 i = 1#1) (hc2 : k0_cond2 i = 1#1) (x0 x1 : Vec Ideal S1x512x1024 .f32) (b5 b6 b7 : Vec Ideal S1024 .f32)
    (o : Vec Ideal S1x512x1024 .f32) (q : Vec Ideal S512x1024 .bf16) (b qi ki : Fin 4)
    (hi1 : (i 1).val = qi.val) (hi2 : (i 2).val = ki.val)
    (hq : ∀ (p : Fin 512) (e : Fin 1024), q (ix2 p e) = Ideal.sign (X (ix3 b (rowOf qi p) e) * Ideal.sign (Bq (ix1 e))))
    (hx1 : ∀ (k : Fin 512) (e : Fin 1024), x1 (ix3 (0 : Fin 1) k e) = X (ix3 b (rowOf ki k) e))
    (hb6 : ∀ e : Fin 1024, b6 (ix1 e) = Ideal.sign (Bk (ix1 e)))
    (hb7 : ∀ e : Fin 1024, b7 (ix1 e) = Ideal.sign (Bv (ix1 e)))
    (p : Fin 512) (d : Fin 1024) :
    outLive c i a3 h3 a4 h4 a5 h5 a6 h6 a7 h7 a8 h8 a9 h9 hc1 hc2 x0 x1 b5 b6 b7 o q (ix3 (0 : Fin 1) p d)
      = o (ix3 (0 : Fin 1) p d) + tile X Bq Bk Bv b qi p d ki := by
  rw [outLive_eq, hi1, hi2]
  exact (payStep_apply X Bq Bk Bv b qi ki q x1 b6 b7 (k0_pay7 o) hq hx1 hb6 hb7 p d).trans (by rw [pay7_apply])

/-- A first point leaves in the scratch buffer the signs of its query tile's entries times the signed factor. -/
theorem scrFirst_apply (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : k0_cond1 i = 1#1) (hc2 : k0_cond2 i = 1#1) (x0 x1 : Vec Ideal S1x512x1024 .f32) (b5 b6 b7 : Vec Ideal S1024 .f32)
    (b qi : Fin 4)
    (hx0 : ∀ (p : Fin 512) (e : Fin 1024), x0 (ix3 (0 : Fin 1) p e) = X (ix3 b (rowOf qi p) e))
    (hb5 : ∀ e : Fin 1024, b5 (ix1 e) = Ideal.sign (Bq (ix1 e)))
    (p : Fin 512) (e : Fin 1024) :
    scrFirst c i a3 h3 a4 h4 a5 h5 a6 h6 a7 h7 a8 h8 a9 h9 hc1 hc2 x0 x1 b5 b6 b7 (ix2 p e)
      = Ideal.sign (X (ix3 b (rowOf qi p) e) * Ideal.sign (Bq (ix1 e))) := by
  rw [scrFirst_eq, pay2_apply, hx0, hb5]

/-- A first point leaves, at `(0, p, d)`, zero plus its key tile's contribution. -/
theorem outFirst_apply (c : Dev nD) (i : grid0.Coords) (a3 : Memref sig .tc .vmem S1x512x1024 .f32) (h3 : a3.IsWhole) (a4 : Memref sig .tc .vmem S1x512x1024 .f32) (h4 : a4.IsWhole) (a5 : Memref sig .tc .vmem S1024 .f32) (h5 : a5.IsWhole) (a6 : Memref sig .tc .vmem S1024 .f32) (h6 : a6.IsWhole) (a7 : Memref sig .tc .vmem S1024 .f32) (h7 : a7.IsWhole) (a8 : Memref sig .tc .vmem S1x512x1024 .f32) (h8 : a8.IsWhole) (a9 : Memref sig .tc .vmem S512x1024 .bf16) (h9 : a9.IsWhole)
    (hc1 : k0_cond1 i = 1#1) (hc2 : k0_cond2 i = 1#1) (x0 x1 : Vec Ideal S1x512x1024 .f32) (b5 b6 b7 : Vec Ideal S1024 .f32)
    (b qi ki : Fin 4)
    (hi1 : (i 1).val = qi.val) (hi2 : (i 2).val = ki.val)
    (hx0 : ∀ (p : Fin 512) (e : Fin 1024), x0 (ix3 (0 : Fin 1) p e) = X (ix3 b (rowOf qi p) e))
    (hb5 : ∀ e : Fin 1024, b5 (ix1 e) = Ideal.sign (Bq (ix1 e)))
    (hx1 : ∀ (k : Fin 512) (e : Fin 1024), x1 (ix3 (0 : Fin 1) k e) = X (ix3 b (rowOf ki k) e))
    (hb6 : ∀ e : Fin 1024, b6 (ix1 e) = Ideal.sign (Bk (ix1 e)))
    (hb7 : ∀ e : Fin 1024, b7 (ix1 e) = Ideal.sign (Bv (ix1 e)))
    (p : Fin 512) (d : Fin 1024) :
    outFirst c i a3 h3 a4 h4 a5 h5 a6 h6 a7 h7 a8 h8 a9 h9 hc1 hc2 x0 x1 b5 b6 b7 (ix3 (0 : Fin 1) p d)
      = 0 + tile X Bq Bk Bv b qi p d ki := by
  rw [outFirst_eq, hi1, hi2]
  exact (payStep_apply X Bq Bk Bv b qi ki (k0_pay2 x0 b5) x1 b6 b7 (k0_pay7 (k0_pay1 (F := Ideal)))
    (fun p e => by rw [pay2_apply, hx0, hb5]) hx1 hb6 hb7 p d).trans (by rw [pay7_apply, pay1_apply])

end

end Cert.KernelIdeal.AttnAcc

end
-- ==== Proof.IdealFrame.Accumulate.lean ====
/-
  The accumulation over the grid points, at the ideal values. Point `t = 16·b + 4·qi + ki` handles batch `b`, query
  tile `qi`, key tile `ki`. After it the scratch buffer holds the signs of query tile `qi`'s entries (times the signed
  per-feature factor), and the output tile's buffer holds the contributions of the key tiles `0, …, min ki qi` to the
  entries of query tile `qi`: a first point (`ki = 0`) stores zero plus key tile 0's contribution, a live point
  (`0 < ki ≤ qi`) adds key tile `ki`'s, a dead point (`qi < ki`) changes nothing — and the dead tiles contribute
  nothing to the specification either, so after key tile 3 the buffer holds the attended values.
-/
import proofs.«105131_j59863254172674_2_alg».proof.Proof.IdealFrame.Carry
import proofs.«105131_j59863254172674_2_alg».proof.Proof.IdealFrame.StepValues

set_option maxRecDepth 16384

noncomputable section

open scoped BigOperators

namespace Cert.KernelIdeal.AttnAcc

open Cert.KernelIdeal Cert.KernelIdeal.Gen Cert.KernelIdeal.Attn Cert.KernelIdeal.AttnPay
open Cert.Attn (SX SB c8 score weight rowOf tile weight_rowOf accTo accTo_zero accTo_succ accTo_full attendAt)
open Idealize.ShloMosaic Idealize.ShloMosaic.TcCoe Idealize.ShloMosaic.ValueIdx

section
variable (m : (ℓ : Loc nD τ sig) → Buf (Elt Ideal) ℓ) (c : Dev nD)
variable (X : FVec Ideal SX .f32) (Bq Bk Bv : FVec Ideal SB .f32)
variable (bOf qOf kOf : Fin cfg0.N → Fin 4)

/-- THE ACCUMULATION, by induction over the points in order. `bOf`, `qOf`, `kOf` name a point's batch, its query tile
    and the key tile its key window fetches; the five block readings say what the input windows hold. -/
theorem accumulate
    (hb : ∀ t : Fin cfg0.N, (bOf t).val = t.val / 16) (hq : ∀ t : Fin cfg0.N, (qOf t).val = t.val / 4 % 4)
    (hk : ∀ t : Fin cfg0.N, (kOf t).val = min (t.val % 4) (t.val / 4 % 4))
    (hB0 : ∀ (t : Fin cfg0.N) (p : Fin 512) (e : Fin 1024),
      (iblk m c 0 t : Vec Ideal S1x512x1024 .f32) (ix3 (0 : Fin 1) p e) = X (ix3 (bOf t) (rowOf (qOf t) p) e))
    (hB1 : ∀ (t : Fin cfg0.N) (k : Fin 512) (e : Fin 1024),
      (iblk m c 1 t : Vec Ideal S1x512x1024 .f32) (ix3 (0 : Fin 1) k e) = X (ix3 (bOf t) (rowOf (kOf t) k) e))
    (hB2 : ∀ (t : Fin cfg0.N) (e : Fin 1024), (iblk m c 2 t : Vec Ideal S1024 .f32) (ix1 e) = Ideal.sign (Bq (ix1 e)))
    (hB3 : ∀ (t : Fin cfg0.N) (e : Fin 1024), (iblk m c 3 t : Vec Ideal S1024 .f32) (ix1 e) = Ideal.sign (Bk (ix1 e)))
    (hB4 : ∀ (t : Fin cfg0.N) (e : Fin 1024), (iblk m c 4 t : Vec Ideal S1024 .f32) (ix1 e) = Ideal.sign (Bv (ix1 e))) :
    ∀ (n : ℕ) (hn : n < cfg0.N),
      (∀ (p : Fin 512) (e : Fin 1024), (outsAt m c n hn).2 (ix2 p e)
          = Ideal.sign (X (ix3 (bOf ⟨n, hn⟩) (rowOf (qOf ⟨n, hn⟩) p) e) * Ideal.sign (Bq (ix1 e))))
      ∧ (∀ (p : Fin 512) (d : Fin 1024), (outsAt m c n hn).1 (ix3 (0 : Fin 1) p d)
          = accTo X Bq Bk Bv (bOf ⟨n, hn⟩) (qOf ⟨n, hn⟩) p d (min (n % 4) (n / 4 % 4))) := by
  intro n
  induction n using Nat.strong_induction_on with
  | _ n ih =>
    intro hn
    have hN : n < 64 := lt_of_lt_of_eq hn N_0
    obtain ⟨e1, e2⟩ := coords12 ⟨n, hn⟩
    have hbv : (bOf ⟨n, hn⟩).val = n / 16 := hb ⟨n, hn⟩
    have hqv : (qOf ⟨n, hn⟩).val = n / 4 % 4 := hq ⟨n, hn⟩
    have hkv : (kOf ⟨n, hn⟩).val = min (n % 4) (n / 4 % 4) := hk ⟨n, hn⟩
    have hi1 : (grid0.coords ⟨n, hn⟩ 1).val = (qOf ⟨n, hn⟩).val := e1.trans hqv.symm
    by_cases h0 : n % 4 = 0
    · -- a first point
      have hmin : min (n % 4) (n / 4 % 4) = 0 := by rw [h0]; exact Nat.zero_min _
      have hk0 : kOf ⟨n, hn⟩ = (0 : Fin 4) := Fin.ext (hkv.trans hmin)
      have hi2 : (grid0.coords ⟨n, hn⟩ 2).val = (kOf ⟨n, hn⟩).val := e2.trans (by rw [hkv, hmin]; exact h0)
      rw [outsAt_first m c ⟨n, hn⟩ h0 (VO.read (Elt Ideal) VO.junk, VS.read (Elt Ideal) VS.junk)]
      unfold stepAt
      rw [dif_pos (by show n % 4 = 0; exact h0)]
      dsimp only
      refine ⟨fun p e => ?_, fun p d => ?_⟩
      · exact scrFirst_apply X Bq c _ _ _ _ _ _ _ _ _ _ _ _ _ _ _ _ _ _ _ _ _ _ (bOf ⟨n, hn⟩) (qOf ⟨n, hn⟩) (hB0 ⟨n, hn⟩) (hB2 ⟨n, hn⟩) p e
      · rw [hmin, accTo_zero]
        exact (outFirst_apply X Bq Bk Bv c _ _ _ _ _ _ _ _ _ _ _ _ _ _ _ _ _ _ _ _ _ _ (bOf ⟨n, hn⟩) (qOf ⟨n, hn⟩) (kOf ⟨n, hn⟩) hi1 hi2
          (hB0 ⟨n, hn⟩) (hB2 ⟨n, hn⟩) (hB1 ⟨n, hn⟩) (hB3 ⟨n, hn⟩) (hB4 ⟨n, hn⟩) p d).trans (by rw [hk0])
    · have hpos : n ≠ 0 := by rintro rfl; exact h0 rfl
      have hn1 : n - 1 < cfg0.N := by omega
      obtain ⟨ihS, ihO⟩ := ih (n - 1) (by omega) hn1
      have hbEq : bOf ⟨n - 1, hn1⟩ = bOf ⟨n, hn⟩ := Fin.ext (by rw [hbv, hb ⟨n - 1, hn1⟩]; show (n - 1) / 16 = n / 16; omega)
      have hqEq : qOf ⟨n - 1, hn1⟩ = qOf ⟨n, hn⟩ := Fin.ext (by rw [hqv, hq ⟨n - 1, hn1⟩]; show (n - 1) / 4 % 4 = n / 4 % 4; omega)
      have hstep : outsAt m c n hn = stepAt m c ⟨n, hn⟩ (outsAt m c (n - 1) hn1) := outsAt_pos m c ⟨n, hn⟩ hpos
      have hS : ∀ (p : Fin 512) (e : Fin 1024), (outsAt m c (n - 1) hn1).2 (ix2 p e)
          = Ideal.sign (X (ix3 (bOf ⟨n, hn⟩) (rowOf (qOf ⟨n, hn⟩) p) e) * Ideal.sign (Bq (ix1 e))) := fun p e => by
        rw [ihS p e, hbEq, hqEq]
      rw [hstep]
      unfold stepAt
      by_cases h1 : n % 4 ≤ n / 4 % 4
      · -- a live point
        have hmin : min (n % 4) (n / 4 % 4) = (n % 4 - 1) + 1 := by rw [Nat.min_eq_left h1]; omega
        have hminP : min ((n - 1) % 4) ((n - 1) / 4 % 4) = n % 4 - 1 := by
          have a1 : (n - 1) % 4 = n % 4 - 1 := by omega
          have a2 : (n - 1) / 4 % 4 = n / 4 % 4 := by omega
          rw [a1, a2]; exact Nat.min_eq_left (by omega)
        have hkEq : kOf ⟨n, hn⟩ = (⟨n % 4 - 1 + 1, by omega⟩ : Fin 4) := Fin.ext (hkv.trans hmin)
        have hi2 : (grid0.coords ⟨n, hn⟩ 2).val = (kOf ⟨n, hn⟩).val := e2.trans (by rw [hkv, Nat.min_eq_left h1])
        rw [dif_neg (by show ¬ n % 4 = 0; exact h0), dif_pos (by show n % 4 ≤ n / 4 % 4; exact h1)]
        dsimp only
        refine ⟨hS, fun p d => ?_⟩
        refine (outLive_apply X Bq Bk Bv c _ _ _ _ _ _ _ _ _ _ _ _ _ _ _ _ _ _ _ _ _ _ _ _ (bOf ⟨n, hn⟩) (qOf ⟨n, hn⟩) (kOf ⟨n, hn⟩) hi1 hi2
          hS (hB1 ⟨n, hn⟩) (hB3 ⟨n, hn⟩) (hB4 ⟨n, hn⟩) p d).trans ?_
        rw [ihO p d, hbEq, hqEq, hminP, hmin, accTo_succ X Bq Bk Bv (bOf ⟨n, hn⟩) (qOf ⟨n, hn⟩) p d (n % 4 - 1) (by omega), hkEq]
      · -- a dead point
        have hminD : min ((n - 1) % 4) ((n - 1) / 4 % 4) = min (n % 4) (n / 4 % 4) := by
          have a1 : (n - 1) % 4 = n % 4 - 1 := by omega
          have a2 : (n - 1) / 4 % 4 = n / 4 % 4 := by omega
          rw [a1, a2, Nat.min_eq_right (by omega), Nat.min_eq_right (by omega)]
        rw [dif_neg (by show ¬ n % 4 = 0; exact h0), dif_neg (by show ¬ n % 4 ≤ n / 4 % 4; exact h1)]
        refine ⟨hS, fun p d => ?_⟩
        rw [ihO p d, hbEq, hqEq, hminD]

/-- After key tile 3 the output tile's buffer holds the attended values of its query tile's rows. -/
theorem accumulate_last
    (hb : ∀ t : Fin cfg0.N, (bOf t).val = t.val / 16) (hq : ∀ t : Fin cfg0.N, (qOf t).val = t.val / 4 % 4)
    (hk : ∀ t : Fin cfg0.N, (kOf t).val = min (t.val % 4) (t.val / 4 % 4))
    (hB0 : ∀ (t : Fin cfg0.N) (p : Fin 512) (e : Fin 1024),
      (iblk m c 0 t : Vec Ideal S1x512x1024 .f32) (ix3 (0 : Fin 1) p e) = X (ix3 (bOf t) (rowOf (qOf t) p) e))
    (hB1 : ∀ (t : Fin cfg0.N) (k : Fin 512) (e : Fin 1024),
      (iblk m c 1 t : Vec Ideal S1x512x1024 .f32) (ix3 (0 : Fin 1) k e) = X (ix3 (bOf t) (rowOf (kOf t) k) e))
    (hB2 : ∀ (t : Fin cfg0.N) (e : Fin 1024), (iblk m c 2 t : Vec Ideal S1024 .f32) (ix1 e) = Ideal.sign (Bq (ix1 e)))
    (hB3 : ∀ (t : Fin cfg0.N) (e : Fin 1024), (iblk m c 3 t : Vec Ideal S1024 .f32) (ix1 e) = Ideal.sign (Bk (ix1 e)))
    (hB4 : ∀ (t : Fin cfg0.N) (e : Fin 1024), (iblk m c 4 t : Vec Ideal S1024 .f32) (ix1 e) = Ideal.sign (Bv (ix1 e)))
    (t : Fin cfg0.N) (h3 : t.val % 4 = 3) (p : Fin 512) (d : Fin 1024) :
    (outsAt m c t.val t.isLt).1 (ix3 (0 : Fin 1) p d) = attendAt X Bq Bk Bv (bOf t) (rowOf (qOf t) p) d := by
  have hN : t.val < 64 := lt_of_lt_of_eq t.isLt N_0
  refine ((accumulate m c X Bq Bk Bv bOf qOf kOf hb hq hk hB0 hB1 hB2 hB3 hB4 t.val t.isLt).2 p d).trans ?_
  exact accTo_full X Bq Bk Bv (bOf t) (qOf t) p d _ (by rw [hq t, h3]; exact Nat.le_min.mpr ⟨by omega, Nat.le_refl _⟩)

end

end Cert.KernelIdeal.AttnAcc

end
-- ==== Proof.AttnBlocks.lean ====
/-
  The kernel's input blocks read at an index, and the result window's rectangle.

  The grid point `t = 16·b + 4·qi + ki` stands for batch `b`, query tile `qi`, key tile `ki`. Each window's block at
  `t` sits in its array at (block index) × (block size) on every axis, and the block indices are the printed index
  maps, decided once over the 64 grid points:
    * the query window's block is rows `512·qi …` of batch `b` of `x`;
    * the key window's block is rows `512·min(ki, qi) …` of batch `b` of the same array (past the diagonal the
      index map repeats the diagonal tile, which the body then does not read);
    * the three per-feature windows are whole vectors, and their arrays hold the signs the host took before the
      region, so an entry is the sign of the argument's entry;
    * the result window's block is rows `512·qi …` of batch `b`, written back at the points with `ki = 3`; these
      sixteen blocks cover the result array.
-/
import proofs.«105131_j59863254172674_2_alg».proof.Proof.IdealFrame.Entry
import proofs.«105131_j59863254172674_2_alg».proof.Proof.AttnTiles

set_option maxRecDepth 16384

noncomputable section

namespace Cert.KernelIdeal.AttnBlk

open Cert.KernelIdeal Cert.KernelIdeal.Gen Cert.KernelIdeal.Attn
open Cert.Attn (rowOf rowOf_val)
open Idealize.ShloMosaic Idealize.ShloMosaic.TcCoe Idealize.ShloMosaic.Tactic Idealize.ShloMosaic.ValueIdx
open Idealize.SL.Sem

variable (m : (ℓ : Loc nD τ sig) → Buf (Elt Ideal) ℓ)

/-! ## A grid point's coordinates -/

theorem lt64 (t : Fin cfg0.N) : t.val < 64 := lt_of_lt_of_eq t.isLt (show cfg0.N = 64 from N_0)

/-- The batch of point `t`. -/
def batchOf (t : Fin cfg0.N) : Fin 4 := ⟨t.val / 16, by have := lt64 t; omega⟩
/-- The query tile of point `t`. -/
def qtileOf (t : Fin cfg0.N) : Fin 4 := ⟨t.val / 4 % 4, Nat.mod_lt _ (by decide)⟩
/-- The key tile the key window fetches at point `t`: the point's key tile, capped at the diagonal. -/
def kfetchOf (t : Fin cfg0.N) : Fin 4 :=
  ⟨min (t.val % 4) (t.val / 4 % 4), lt_of_le_of_lt (Nat.min_le_left _ _) (Nat.mod_lt _ (by decide))⟩

theorem batchOf_val (t : Fin cfg0.N) : (batchOf t).val = t.val / 16 := rfl
theorem qtileOf_val (t : Fin cfg0.N) : (qtileOf t).val = t.val / 4 % 4 := rfl
theorem kfetchOf_val (t : Fin cfg0.N) : (kfetchOf t).val = min (t.val % 4) (t.val / 4 % 4) := rfl

/-- The last point of batch `b`, query tile `qi`: the one that writes the result tile back. -/
def lastPoint (b qi : Fin 4) : Fin cfg0.N :=
  ⟨16 * b.val + 4 * qi.val + 3,
    lt_of_lt_of_eq (by have := b.isLt; have := qi.isLt; omega : 16 * b.val + 4 * qi.val + 3 < 64)
      (show (64 : ℕ) = cfg0.N from N_0.symm)⟩

theorem lastPoint_val (b qi : Fin 4) : (lastPoint b qi).val = 16 * b.val + 4 * qi.val + 3 := rfl

/-! ## The printed index maps, decided over the grid -/

theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = min (t.val % 4) (t.val / 4 % 4)
    ∧ win0_1.index t (2 : Fin 3) = 0
    ∧ win0_2.index t (0 : Fin 1) = 0 ∧ win0_3.index t (0 : Fin 1) = 0 ∧ win0_4.index t (0 : Fin 1) = 0
    ∧ win0_5.index t (0 : Fin 3) = t.val / 16 ∧ win0_5.index t (1 : Fin 3) = t.val / 4 % 4 ∧ win0_5.index t (2 : Fin 3) = 0 :=
  (by decide +kernel : ∀ t : Fin grid0.N, _)

/-! ## The two tiles of `x` -/

/-- The query window's block at `t`: rows of tile `qi` of batch `b`. -/
theorem query_block (c : Dev nD) (t : Fin cfg0.N) (p : Fin 512) (e : Fin 1024) :
    (iblk m c 0 t : Vec Ideal S1x512x1024 .f32) (ix3 (0 : Fin 1) p e)
      = (m ((c : Thread nD τ).loc main_arg0) : S4x2048x1024.Idx → Elt Ideal .f32) (ix3 (batchOf t) (rowOf (qtileOf t) p) e) := by
  obtain ⟨e0, e1, e2, -⟩ := idx_facts t
  have ht := lt64 t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val / 16; omega
  | ⟨1, _⟩ => show win0_0.index t (1 : Fin 3) * 512 + 1 * p.val = 512 * (t.val / 4 % 4) + p.val; omega
  | ⟨2, _⟩ => show win0_0.index t (2 : Fin 3) * 1024 + 1 * e.val = e.val; omega

/-- The key window's block at `t`: rows of tile `min(ki, qi)` of batch `b`. -/
theorem key_block (c : Dev nD) (t : Fin cfg0.N) (k : Fin 512) (e : Fin 1024) :
    (iblk m c 1 t : Vec Ideal S1x512x1024 .f32) (ix3 (0 : Fin 1) k e)
      = (m ((c : Thread nD τ).loc main_arg0) : S4x2048x1024.Idx → Elt Ideal .f32) (ix3 (batchOf t) (rowOf (kfetchOf t) k) e) := by
  obtain ⟨-, -, -, e0, e1, e2, -⟩ := idx_facts t
  have ht := lt64 t
  unfold iblk
  rw [View.read_apply]
  show V m c main_arg0 _ = m ((c : Thread nD τ).loc main_arg0) _
  rw [V_main_arg0]
  congr 1
  funext a
  apply Fin.ext
  match a with
  | ⟨0, _⟩ => show win0_1.index t (0 : Fin 3) * 1 + 1 * 0 = t.val / 16; omega
  | ⟨1, _⟩ =>
    show win0_1.index t (1 : Fin 3) * 512 + 1 * k.val = 512 * (min (t.val % 4) (t.val / 4 % 4)) + k.val
    rw [e1]; omega
  | ⟨2, _⟩ => show win0_1.index t (2 : Fin 3) * 1024 + 1 * e.val = e.val; omega

/-! ## The sign vectors -/

/-- What the host left in the three vectors' arrays before the region: the signs of the arguments. -/
theorem V_signs (c : Dev nD) :
    (V m c main_v0 : S1024.Idx → EReal)
        = Host.sign (F := Ideal) (s := S1024) (φ := .f32) (m ((c : Thread nD τ).loc main_arg1) : FVec Ideal S1024 .f32)
    ∧ (V m c main_v1 : S1024.Idx → EReal)
        = Host.sign (F := Ideal) (s := S1024) (φ := .f32) (m ((c : Thread nD τ).loc main_arg2) : FVec Ideal S1024 .f32)
    ∧ (V m c main_v2 : S1024.Idx → EReal)
        = Host.sign (F := Ideal) (s := S1024) (φ := .f32) (m ((c : Thread nD τ).loc main_arg3) : FVec Ideal S1024 .f32) := by
  refine ⟨?_, ?_, ?_⟩
  · dsimp only [V, V0, hostOps0]; after_results <;> rfl
  · dsimp only [V, V0, hostOps0]; after_results <;> rfl
  · dsimp only [V, V0, hostOps0]; after_results <;> rfl

theorem signq_block (c : Dev nD) (t : Fin cfg0.N) (e : Fin 1024) :
    (iblk m c 2 t : Vec Ideal S1024 .f32) (ix1 e)
      = Ideal.sign ((m ((c : Thread nD τ).loc main_arg1) : S1024.Idx → Elt Ideal .f32) (ix1 e)) := by
  obtain ⟨-, -, -, -, -, -, e0, -⟩ := idx_facts t
  unfold iblk
  rw [View.read_apply]
  show V m c main_v0 _ = _
  rw [(V_signs m c).1]
  show Ideal.sign (m ((c : Thread nD τ).loc main_arg1) _) = _
  congr 2
  funext a
  apply Fin.ext
  match a with
  | ⟨0, _⟩ => show win0_2.index t (0 : Fin 1) * 1024 + 1 * e.val = e.val; omega

theorem signk_block (c : Dev nD) (t : Fin cfg0.N) (e : Fin 1024) :
    (iblk m c 3 t : Vec Ideal S1024 .f32) (ix1 e)
      = Ideal.sign ((m ((c : Thread nD τ).loc main_arg2) : S1024.Idx → Elt Ideal .f32) (ix1 e)) := by
  obtain ⟨-, -, -, -, -, -, -, e0, -⟩ := idx_facts t
  unfold iblk
  rw [View.read_apply]
  show V m c main_v1 _ = _
  rw [(V_signs m c).2.1]
  show Ideal.sign (m ((c : Thread nD τ).loc main_arg2) _) = _
  congr 2
  funext a
  apply Fin.ext
  match a with
  | ⟨0, _⟩ => show win0_3.index t (0 : Fin 1) * 1024 + 1 * e.val = e.val; omega

theorem signv_block (c : Dev nD) (t : Fin cfg0.N) (e : Fin 1024) :
    (iblk m c 4 t : Vec Ideal S1024 .f32) (ix1 e)
      = Ideal.sign ((m ((c : Thread nD τ).loc main_arg3) : S1024.Idx → Elt Ideal .f32) (ix1 e)) := by
  obtain ⟨-, -, -, -, -, -, -, -, e0, -⟩ := idx_facts t
  unfold iblk
  rw [View.read_apply]
  show V m c main_v2 _ = _
  rw [(V_signs m c).2.2]
  show Ideal.sign (m ((c : Thread nD τ).loc main_arg3) _) = _
  congr 2
  funext a
  apply Fin.ext
  match a with
  | ⟨0, _⟩ => show win0_4.index t (0 : Fin 1) * 1024 + 1 * e.val = e.val; omega

/-! ## The result window's rectangle -/

/-- Where the result window's block at `t` puts its entry `(p, d)`: row `p` of tile `qi` of batch `b`. -/
theorem out_emb (t : Fin cfg0.N) (p : Fin 512) (d : Fin 1024) :
    (((cfg0.win 5).blk t).view.emb (ix3 (0 : Fin 1) p d : S1x512x1024.Idx) : S4x2048x1024.Idx)
      = ix3 (batchOf t) (rowOf (qtileOf t) p) d := by
  obtain ⟨-, -, -, -, -, -, -, -, -, e0, e1, e2⟩ := idx_facts t
  have ht := lt64 t
  funext a
  apply Fin.ext
  match a with
  | ⟨0, _⟩ => show win0_5.index t (0 : Fin 3) * 1 + 1 * 0 = t.val / 16; omega
  | ⟨1, _⟩ => show win0_5.index t (1 : Fin 3) * 512 + 1 * p.val = 512 * (t.val / 4 % 4) + p.val; omega
  | ⟨2, _⟩ => show win0_5.index t (2 : Fin 3) * 1024 + 1 * d.val = d.val; omega

/-- An index of the result array is in point `t`'s block iff each coordinate is in the block's range on its axis. -/
theorem mem_out_blk (t : Fin cfg0.N) (i : S4x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v3).slice (win0_5.rect t)).set ↔ _
  rw [View.set_slice_whole, Rect.mem_set_unit]
  exact Iff.rfl

/-- Every index of the result array lies in the block of a point that writes back: the last point of its batch
    and query tile. -/
theorem out_cover (i : S4x2048x1024.Idx) :
    ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  refine ⟨lastPoint ⟨(i 0).val, h0⟩ ⟨(i 1).val / 512, by omega⟩, ?_, ?_⟩
  · exact (flush0_5 _).mpr (by rw [lastPoint_val]; show (16 * (i 0).val + 4 * ((i 1).val / 512) + 3) % 4 = 3; omega)
  · obtain ⟨-, -, -, -, -, -, -, -, -, e0, e1, e2⟩ := idx_facts (lastPoint ⟨(i 0).val, h0⟩ ⟨(i 1).val / 512, by omega⟩)
    have hv : (lastPoint ⟨(i 0).val, h0⟩ ⟨(i 1).val / 512, by omega⟩).val = 16 * (i 0).val + 4 * ((i 1).val / 512) + 3 := rfl
    rw [mem_out_blk]
    intro a
    match a with
    | ⟨0, _⟩ =>
      show win0_5.index _ (0 : Fin 3) * 1 ≤ (i 0).val ∧ (i 0).val < win0_5.index _ (0 : Fin 3) * 1 + 1
      rw [e0, hv]; omega
    | ⟨1, _⟩ =>
      show win0_5.index _ (1 : Fin 3) * 512 ≤ (i 1).val ∧ (i 1).val < win0_5.index _ (1 : Fin 3) * 512 + 512
      rw [e1, hv]; omega
    | ⟨2, _⟩ =>
      show win0_5.index _ (2 : Fin 3) * 1024 ≤ (i 2).val ∧ (i 2).val < win0_5.index _ (2 : Fin 3) * 1024 + 1024
      rw [e2]; omega

end Cert.KernelIdeal.AttnBlk

end
-- ==== Proof.AttnLaws.lean ====
/-
  Scalar facts on the extended reals and on comparison words that the attention reference needs:

    * the straight-through sign `(sg y − y) + y` is `sg y` at every REAL `y` (at `y = +∞` the difference
      `1 − ∞ = −∞` and the sum with `+∞` is `−∞`, so finiteness is needed exactly here);
    * signs and products of reals are real;
    * the three float literals: `1.0` denotes `1`, and `0.03125 · 4.0 = 0.125` (`1/32 · 4 = 1/8`);
    * the lower-triangular mask: the signed comparison `row + 0 ≥ column` of two iota words below `2048`
      is the order of the coordinates.
-/
import Idealize.ShloMosaic.PureOps.Ideal
import Idealize.ShloMosaic.PureOps.Ideal.Laws
import Idealize.ShloMosaic.Lib.ValueIdx
import Idealize.ShloMosaic.Lib.Affine

noncomputable section

namespace Cert.Attn

open Idealize.ShloMosaic Idealize.ShloMosaic.ValueIdx

/-! ## Reals inside the extended reals -/

/-- The straight-through sign is the sign, at a real. -/
theorem ste_eq_sign {y : EReal} (h : ∃ r : ℝ, y = (r : EReal)) : Ideal.sign y - y + y = Ideal.sign y := by
  obtain ⟨r, rfl⟩ := h
  rw [Ideal.sign_coe, ← EReal.coe_sub, ← EReal.coe_add, sub_add_cancel]

/-- A sign is one of the reals `-1, 0, 1`, whatever its argument. -/
theorem sign_real (y : EReal) : ∃ r : ℝ, Ideal.sign y = (r : EReal) := by
  induction y using EReal.rec with
  | bot => exact ⟨-1, by rw [Ideal.sign_bot, EReal.coe_neg, EReal.coe_one]⟩
  | top => exact ⟨1, by rw [Ideal.sign_top, EReal.coe_one]⟩
  | coe r => exact ⟨(SignType.sign r : ℝ), rfl⟩

/-- A product of reals is real. -/
theorem mul_real {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-! ## The float literals -/

/-- `1.0` denotes `1`. -/
theorem ofBits_one : Ideal.ofBits .f32 0x3F800000#32 = 1 := by
  simp [Ideal.ofBits, Ideal.ieee, -EReal.coe_mul]; norm_num

/-- `0.03125 · 4.0 = 0.125`: the scale `1024^(-1/2)` times the sigmoid's slope is the literal `1/8`. -/
theorem scale_mul_slope :
    Ideal.ofBits .f32 0x3D000000#32 * Ideal.ofBits .f32 0x40800000#32 = Ideal.ofBits .f32 0x3E000000#32 := by
  have h32 : Ideal.ofBits .f32 0x3D000000#32 = ((1 / 32 : ℝ) : EReal) := by
    simp [Ideal.ofBits, Ideal.ieee, -EReal.coe_mul]; norm_num
  have h4 : Ideal.ofBits .f32 0x40800000#32 = ((4 : ℝ) : EReal) := by
    simp [Ideal.ofBits, Ideal.ieee, -EReal.coe_mul]; norm_num
  have h8 : Ideal.ofBits .f32 0x3E000000#32 = ((1 / 8 : ℝ) : EReal) := by
    simp [Ideal.ofBits, Ideal.ieee, -EReal.coe_mul]; norm_num
  rw [h32, h4, h8, ← EReal.coe_mul]
  norm_num

/-! ## The lower-triangular mask -/

/-- A coordinate below `2048`, written as a 32-bit word and read signed, is the coordinate. -/
theorem toInt_ofNat_coord (k : Fin 2048) : (BitVec.ofNat 32 k.val).toInt = (k.val : Int) := by
  have hk := k.isLt
  rw [BitVec.toInt_eq_toNat_cond, BitVec.toNat_ofNat, Nat.mod_eq_of_lt (by omega)]
  rw [if_pos (by omega)]

/-- The mask's bit at row `t`, column `s`: the comparison `t + 0 ≥ s` of the two iota words, selecting between
    the all-ones and the all-zeros arrays, is `1` exactly on and below the diagonal. -/
theorem tril_bit (t s : Fin 2048) :
    Scalar.select (IntOp.cmpi .sge (IntOp.addi (BitVec.ofNat 32 t.val) 0#32) (BitVec.ofNat 32 s.val)) (1#1 : BitVec 1) 0#1
      = if s ≤ t then 1#1 else 0#1 := by
  have h0 : IntOp.addi (BitVec.ofNat 32 t.val) 0#32 = BitVec.ofNat 32 t.val := BitVec.add_zero _
  rw [h0]
  by_cases h : s ≤ t
  · have hc : IntOp.cmpi .sge (BitVec.ofNat 32 t.val) (BitVec.ofNat 32 s.val) = 1#1 :=
      IntOp.cmpi_sge.mpr (by rw [toInt_ofNat_coord, toInt_ofNat_coord]; exact_mod_cast h)
    rw [hc, select_one, if_pos h]
  · have hc : IntOp.cmpi .sge (BitVec.ofNat 32 t.val) (BitVec.ofNat 32 s.val) = 0#1 :=
      eq_zero_of_ne_one fun e => h (by
        have := IntOp.cmpi_sge.mp e
        rw [toInt_ofNat_coord, toInt_ofNat_coord] at this
        exact_mod_cast this)
    rw [hc, select_zero, if_neg h]

/-- A select on the mask's bit is the `if` on the order of the coordinates. -/
theorem select_tril {α : Type} (t s : Fin 2048) (A B : α) :
    Scalar.select (if s ≤ t then (1#1 : BitVec 1) else 0#1) A B = if s ≤ t then A else B := by
  by_cases h : s ≤ t
  · rw [if_pos h, if_pos h, select_one]
  · rw [if_neg h, if_neg h, select_zero]

end Cert.Attn

end
-- ==== Proof.AttnReference.lean ====
/-
  The reference program computes the specification: at every index its result is `Cert.Attn.attend` of the four
  argument arrays, provided every argument entry is a real.

  The reference is read one operation at a time (the generated stage lemmas), from the inside out:
    * each per-feature vector goes through the straight-through sign `(sg y − y) + y`, which is `sg y` at a real;
    * the binarised queries and keys are the straight-through sign of `x · sg b`, a real again;
    * the score is their dot product over the features;
    * the lower-triangular mask is the comparison of a row iota with a column iota;
    * on and below the diagonal the weight is `1 / (1 + exp (−((score · 1/32) · 4)))`, the logistic of
      `score · 1/8` by associativity of the product; above the diagonal the second mask overwrites it with `0`
      (what the sigmoid made of the first mask's `−∞` is never read);
    * the result is the sum over key positions of weight times value.
-/
import proofs.«105131_j59863254172674_2_alg».proof.Proof.Gen.ReferenceIdeal.Read
import proofs.«105131_j59863254172674_2_alg».proof.Proof.AttnSpec
import proofs.«105131_j59863254172674_2_alg».proof.Proof.AttnLaws

noncomputable section

open scoped BigOperators

namespace Cert.Attn

open Idealize.ShloMosaic Idealize.ShloMosaic.ValueIdx Cert.ReferenceIdeal Cert.ReferenceIdeal.Read

/-! ## Where each layout operation reads its operand -/

theorem idx_feature (b : Fin 4) (t : Fin 2048) (e : Fin 1024) :
    idx_main_v9 (idx_main_v10 (ix3 b t e)) = ix1 e := funext fun a => by match a with | ⟨0, _⟩ => rfl

theorem idx_feature_k (b : Fin 4) (t : Fin 2048) (e : Fin 1024) :
    idx_main_v15 (idx_main_v16 (ix3 b t e)) = ix1 e := funext fun a => by match a with | ⟨0, _⟩ => rfl

theorem idx_feature_v (b : Fin 4) (t : Fin 2048) (e : Fin 1024) :
    idx_main_v21 (idx_main_v22 (ix3 b t e)) = ix1 e := funext fun a => by match a with | ⟨0, _⟩ => rfl

theorem lidx_score (b : Fin 4) (t s : Fin 2048) (e : Fin 1024) :
    lidx_main_v24 (ix3 b t s) e = ix3 b t e := funext fun a => by
  match a with | ⟨0, _⟩ => rfl | ⟨1, _⟩ => rfl | ⟨2, _⟩ => rfl

theorem ridx_score (b : Fin 4) (t s : Fin 2048) (e : Fin 1024) :
    ridx_main_v24 (ix3 b t s) e = ix3 b s e := funext fun a => by
  match a with | ⟨0, _⟩ => rfl | ⟨1, _⟩ => rfl | ⟨2, _⟩ => rfl

theorem idx_mask (b : Fin 4) (t s : Fin 2048) :
    idx_main_call1_v1 (ix3 b t s) = ix2 t s := funext fun a => by
  match a with | ⟨0, _⟩ => rfl | ⟨1, _⟩ => rfl

theorem lidx_out (b : Fin 4) (t : Fin 2048) (d : Fin 1024) (s : Fin 2048) :
    lidx_main_v39 (ix3 b t d) s = ix3 b t s := funext fun a => by
  match a with | ⟨0, _⟩ => rfl | ⟨1, _⟩ => rfl | ⟨2, _⟩ => rfl

theorem ridx_out (b : Fin 4) (t : Fin 2048) (d : Fin 1024) (s : Fin 2048) :
    ridx_main_v39 (ix3 b t d) s = ix3 b s d := funext fun a => by
  match a with | ⟨0, _⟩ => rfl | ⟨1, _⟩ => rfl | ⟨2, _⟩ => rfl

/-! ## The per-feature vectors are signs -/

section
variable (x : FVec Ideal SX .f32) (bq bk bv : FVec Ideal SB .f32)

theorem ste_q (hq : ∀ i, ∃ r : ℝ, bq i = (r : EReal)) (b : Fin 4) (t : Fin 2048) (e : Fin 1024) :
    val_main_v10 (F := Ideal) bq (ix3 b t e) = Ideal.sign (bq (ix1 e)) := by
  rw [val_main_v10_apply, val_main_v9_apply, idx_feature, val_main_v2_apply, val_main_v1_apply, val_main_v0_apply]
  simp only [Ideal.addf_def, Ideal.subf_def, Ideal.hostUnary_sign_def]
  exact ste_eq_sign (hq _)

theorem ste_k (hk : ∀ i, ∃ r : ℝ, bk i = (r : EReal)) (b : Fin 4) (t : Fin 2048) (e : Fin 1024) :
    val_main_v16 (F := Ideal) bk (ix3 b t e) = Ideal.sign (bk (ix1 e)) := by
  rw [val_main_v16_apply, val_main_v15_apply, idx_feature_k, val_main_v5_apply, val_main_v4_apply, val_main_v3_apply]
  simp only [Ideal.addf_def, Ideal.subf_def, Ideal.hostUnary_sign_def]
  exact ste_eq_sign (hk _)

theorem ste_v (hv : ∀ i, ∃ r : ℝ, bv i = (r : EReal)) (b : Fin 4) (t : Fin 2048) (e : Fin 1024) :
    val_main_v22 (F := Ideal) bv (ix3 b t e) = Ideal.sign (bv (ix1 e)) := by
  rw [val_main_v22_apply, val_main_v21_apply, idx_feature_v, val_main_v8_apply, val_main_v7_apply, val_main_v6_apply]
  simp only [Ideal.addf_def, Ideal.subf_def, Ideal.hostUnary_sign_def]
  exact ste_eq_sign (hv _)

/-! ## Queries, keys, values -/

theorem query_entry (hx : ∀ i, ∃ r : ℝ, x i = (r : EReal)) (hq : ∀ i, ∃ r : ℝ, bq i = (r : EReal))
    (b : Fin 4) (t : Fin 2048) (e : Fin 1024) :
    val_main_v14 (F := Ideal) x bq (ix3 b t e) = Ideal.sign (x (ix3 b t e) * Ideal.sign (bq (ix1 e))) := by
  rw [val_main_v14_apply, val_main_v13_apply, val_main_v12_apply, val_main_v11_apply, ste_q bq hq]
  simp only [Ideal.addf_def, Ideal.subf_def, Ideal.mulf_def, Ideal.hostUnary_sign_def]
  exact ste_eq_sign (mul_real (hx _) (sign_real _))

theorem key_entry (hx : ∀ i, ∃ r : ℝ, x i = (r : EReal)) (hk : ∀ i, ∃ r : ℝ, bk i = (r : EReal))
    (b : Fin 4) (s : Fin 2048) (e : Fin 1024) :
    val_main_v20 (F := Ideal) x bk (ix3 b s e) = Ideal.sign (x (ix3 b s e) * Ideal.sign (bk (ix1 e))) := by
  rw [val_main_v20_apply, val_main_v19_apply, val_main_v18_apply, val_main_v17_apply, ste_k bk hk]
  simp only [Ideal.addf_def, Ideal.subf_def, Ideal.mulf_def, Ideal.hostUnary_sign_def]
  exact ste_eq_sign (mul_real (hx _) (sign_real _))

theorem value_entry (hv : ∀ i, ∃ r : ℝ, bv i = (r : EReal)) (b : Fin 4) (s : Fin 2048) (d : Fin 1024) :
    val_main_v23 (F := Ideal) x bv (ix3 b s d) = x (ix3 b s d) * Ideal.sign (bv (ix1 d)) := by
  rw [val_main_v23_apply, ste_v bv hv]
  simp only [Ideal.mulf_def]

/-! ## The score -/

theorem score_entry (hx : ∀ i, ∃ r : ℝ, x i = (r : EReal)) (hq : ∀ i, ∃ r : ℝ, bq i = (r : EReal))
    (hk : ∀ i, ∃ r : ℝ, bk i = (r : EReal)) (b : Fin 4) (t s : Fin 2048) :
    val_main_v24 (F := Ideal) x bq bk (ix3 b t s) = score x bq bk b t s := by
  rw [val_main_v24_apply]
  unfold score
  refine Finset.sum_congr rfl fun e _ => ?_
  rw [lidx_score, ridx_score, query_entry x bq hx hq, key_entry x bk hx hk]

end

/-! ## The mask -/

theorem mask_entry (t s : Fin 2048) :
    val_main_v28 (F := Ideal) (ix2 t s) = if s ≤ t then 1#1 else 0#1 := by
  rw [val_main_v28_apply, val_main_call0_v4_apply, val_main_call0_v2_apply, val_main_call0_v0_apply,
    val_main_call0_v1_apply, val_main_call0_c_apply, val_main_call0_v3_apply, val_main_v27_apply, val_main_c_apply,
    val_main_call0_v5_apply, val_main_call0_c_0_apply]
  exact tril_bit t s

/-! ## The weight -/

section
variable (x : FVec Ideal SX .f32) (bq bk bv : FVec Ideal SB .f32)

theorem weight_entry (hx : ∀ i, ∃ r : ℝ, x i = (r : EReal)) (hq : ∀ i, ∃ r : ℝ, bq i = (r : EReal))
    (hk : ∀ i, ∃ r : ℝ, bk i = (r : EReal)) (b : Fin 4) (t s : Fin 2048) :
    val_main_v38 (F := Ideal) x bq bk (ix3 b t s) = weight x bq bk b t s := by
  rw [val_main_v38_apply, val_main_call2_v1_apply]
  rw [show idx_main_call2_v1 (ix3 b t s) = ix2 t s from idx_mask b t s, mask_entry, select_tril]
  unfold weight
  by_cases h : s ≤ t
  · rw [if_pos h, if_pos h]
    rw [val_main_v37_apply, val_main_v36_apply, val_main_cst_3_apply, val_main_v35_apply, val_main_v34_apply,
      val_main_cst_2_apply, val_main_v33_apply, val_main_v32_apply, val_main_v31_apply, val_main_v30_apply,
      val_main_cst_1_apply, val_main_v29_apply, val_main_call1_v1_apply, idx_mask, mask_entry, select_tril, if_pos h,
      val_main_v26_apply, val_main_v25_apply, val_main_cst_apply, score_entry x bq bk hx hq hk]
    simp only [Ideal.hostDivf_def, Ideal.addf_def, Ideal.hostUnary_exp_def, Ideal.hostNegf_def, Ideal.negf_def,
      Ideal.mulf_def, Ideal.ofBits_def]
    rw [ofBits_one, mul_assoc, scale_mul_slope]
    rfl
  · rw [if_neg h, if_neg h, val_main_call2_v2_apply, val_main_call2_v0_apply, val_main_cst_4_apply]
    simp only [Ideal.ofBits_def, Ideal.ofBits_zero_f32]

/-! ## The result -/

theorem reference_at (hx : ∀ i, ∃ r : ℝ, x i = (r : EReal)) (hq : ∀ i, ∃ r : ℝ, bq i = (r : EReal))
    (hk : ∀ i, ∃ r : ℝ, bk i = (r : EReal)) (hv : ∀ i, ∃ r : ℝ, bv i = (r : EReal))
    (b : Fin 4) (t : Fin 2048) (d : Fin 1024) :
    val_main_v39 (F := Ideal) x bq bk bv (ix3 b t d) = attendAt x bq bk bv b t d := by
  rw [val_main_v39_apply]
  unfold attendAt
  refine Finset.sum_congr rfl fun s _ => ?_
  rw [lidx_out, ridx_out, weight_entry x bq bk hx hq hk, value_entry x bv hv]

/-- The reference's result array, as the generated stage for `%39` states it, is the specification of its four
    arguments when every argument entry is a real. -/
theorem reference_eq_attend (hx : ∀ i, ∃ r : ℝ, x i = (r : EReal)) (hq : ∀ i, ∃ r : ℝ, bq i = (r : EReal))
    (hk : ∀ i, ∃ r : ℝ, bk i = (r : EReal)) (hv : ∀ i, ∃ r : ℝ, bv i = (r : EReal)) :
    val_main_v39 (F := Ideal) x bq bk bv = attend x bq bk bv := by
  funext i
  obtain ⟨b, t, d, rfl⟩ : ∃ (b : Fin 4) (t : Fin 2048) (d : Fin 1024), i = ix3 b t d := ⟨i 0, i 1, i 2, eq_ix3 i⟩
  rw [attend_ix3]
  exact reference_at x bq bk bv hx hq hk hv b t d

end

end Cert.Attn

end
-- ==== Proof.AttnFinite.lean ====
/-
  Finiteness from the precondition. The precondition function answers `true` exactly when, for each of the four
  argument arrays, every entry `y` satisfies `|y| < +∞` (the conjunction of four `all`-reductions of the
  comparisons). On the extended reals `|y| = max y (−y)` is `+∞` at both infinities, so `|y| < +∞` says that `y` is a
  real. This module reads the four "every entry is a real" facts off the printed function.
-/
import proofs.«105131_j59863254172674_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Attn

open Idealize.ShloMosaic Idealize.ShloMosaic.ValueIdx

/-- The scalar shape has one index. -/
instance : Subsingleton Cert.Pre_finite_inputs.S_.Idx := ⟨fun a b => funext fun d => d.elim0⟩

/-- The pattern `0x7F800000` denotes `+∞`. -/
theorem ofBits_inf : Ideal.ofBits .f32 0x7F800000#32 = ⊤ := by
  simp [Ideal.ofBits, Ideal.ieee]

/-- An extended real whose absolute value is below `+∞` is a real. -/
theorem real_of_abs_lt_inf (y : EReal)
    (h : FloatOps.cmpf (F := Ideal) (φ := .f32) .olt (FloatOps.hostAbsf (F := Ideal) (φ := .f32) y)
      (FloatOps.ofBits (F := Ideal) .f32 0x7F800000#32) = 1#1) :
    ∃ r : ℝ, y = (r : EReal) := by
  rw [Ideal.ofBits_def, ofBits_inf] at h
  induction y using EReal.rec with
  | bot => exact absurd h (by decide)
  | top => exact absurd h (by decide)
  | coe r => exact ⟨r, rfl⟩

section
variable [Cert.Pre_finite_inputs.Facts]
open Cert.Pre_finite_inputs Cert.Pre_finite_inputs.Facts

/-- One `all`-reduction of the comparison `|a| < +∞` that came out `true` says every entry of `a` is a real. -/
theorem real_of_all {s : Shape} {axes : List (Fin s.rank)} (a : FVec Ideal s .f32)
    (hb : S_.BroadcastsInDim s (![] : Fin 0 → Fin s.rank)) (hr : s.ReducesTo axes S_)
    (e : Host.reduce IntOp.andi (cmpf .olt (Host.absf a) (broadcastInDim s ![] hb (constant (F := Ideal) S_ .f32 0x7F800000#32)))
      (constantI S_ 1 1#1) hr h_S_ ix0 = 1#1) (i : s.Idx) : ∃ r : ℝ, a i = (r : EReal) := by
  have hi := Host.reduce_andi_all _ _ hr h_S_ ix0 e i
  exact real_of_abs_lt_inf (a i) hi

/-- The precondition gives the four finiteness facts. -/
theorem real_of_pre (x : FVec Ideal S4x2048x1024 .f32) (bq bk bv : FVec Ideal S1024 .f32)
    (h : Cert.Pre_finite_inputs.fn (F := Ideal) x bq bk bv = (fun _ => 1#1)) :
    (∀ i, ∃ r : ℝ, x i = (r : EReal)) ∧ (∀ i, ∃ r : ℝ, bq i = (r : EReal))
      ∧ (∀ i, ∃ r : ℝ, bk i = (r : EReal)) ∧ (∀ i, ∃ r : ℝ, bv i = (r : EReal)) := by
  have h0 := congrFun h ix0
  dsimp only [Cert.Pre_finite_inputs.fn, Cert.Pre_finite_inputs.fn_part1, andi] at h0
  rw [IntOp.andi_eq_one, IntOp.andi_eq_one, IntOp.andi_eq_one] at h0
  obtain ⟨⟨⟨hx, hq⟩, hk⟩, hv⟩ := h0
  exact ⟨real_of_all x _ _ hx, real_of_all bq _ _ hq, real_of_all bk _ _ hk, real_of_all bv _ _ hv⟩

end

end Cert.Attn

end
-- ==== Proof.AttnResult.lean ====
/-
  The result array after the run. The result window is written back at the last point of each (batch, query tile)
  pair, sixteen blocks of 512 rows that cover the array. If, at each of these points, the output tile the body
  leaves holds the attended values of its rows, then the whole array ends as the specification `Cert.Attn.attend` of
  the argument arrays: block by block the array is read through the block's rectangle, row `p` of the tile being
  position `512·qi + p` of batch `b`.
-/
import proofs.«105131_j59863254172674_2_alg».proof.Proof.IdealFrame.Carry
import proofs.«105131_j59863254172674_2_alg».proof.Proof.AttnBlocks
import proofs.«105131_j59863254172674_2_alg».proof.Proof.AttnTiles
import Idealize.ShloMosaic.Lib.Pipeline.Value

set_option maxRecDepth 16384

noncomputable section

namespace Cert.KernelIdeal.AttnBlk

open Cert.KernelIdeal Cert.KernelIdeal.Gen Cert.KernelIdeal.Attn
open Cert.Attn (rowOf)
open Idealize.ShloMosaic Idealize.ShloMosaic.TcCoe Idealize.ShloMosaic.Tactic Idealize.ShloMosaic.ValueIdx
open Idealize.SL.Sem

variable (m : (ℓ : Loc nD τ sig) → Buf (Elt Ideal) ℓ)

/-- The specification of the four argument arrays as the launch finds them on core `c`. -/
abbrev spec (c : Dev nD) : S4x2048x1024.Idx → EReal :=
  Cert.Attn.attend (m ((c : Thread nD τ).loc main_arg0) : S4x2048x1024.Idx → Elt Ideal .f32)
    (m ((c : Thread nD τ).loc main_arg1) : S1024.Idx → Elt Ideal .f32)
    (m ((c : Thread nD τ).loc main_arg2) : S1024.Idx → Elt Ideal .f32)
    (m ((c : Thread nD τ).loc main_arg3) : S1024.Idx → Elt Ideal .f32)

/-- What a writing point writes back is its block of the specification, given that the output tile holds the
    attended values of its rows there. -/
theorem flushed_eq (c : Dev nD)
    (H : ∀ t : Fin cfg0.N, t.val % 4 = 3 → ∀ (p : Fin 512) (d : Fin 1024),
      (outsAt m c t.val t.isLt).1 (ix3 (0 : Fin 1) p d)
        = Cert.Attn.attendAt (m ((c : Thread nD τ).loc main_arg0) : S4x2048x1024.Idx → Elt Ideal .f32)
            (m ((c : Thread nD τ).loc main_arg1) : S1024.Idx → Elt Ideal .f32)
            (m ((c : Thread nD τ).loc main_arg2) : S1024.Idx → Elt Ideal .f32)
            (m ((c : Thread nD τ).loc main_arg3) : S1024.Idx → Elt Ideal .f32) (batchOf t) (rowOf (qtileOf t) p) d)
    (t : Fin cfg0.N) (hf : (cfg0.win 5).flush t = true) :
    (dats m 0 c).flushed 5 t = ((cfg0.win 5).blk t).view.read (Elt Ideal) (spec m c) := by
  have h3 : t.val % 4 = 3 := (flush0_5 t).mp hf
  have key : ∀ y : S1x512x1024.Idx,
      (dats m 0 c).flushed 5 t y = ((cfg0.win 5).blk t).view.read (Elt Ideal) (spec m c) y := by
    intro y
    obtain ⟨u, p, d, rfl⟩ : ∃ (u : Fin 1) (p : Fin 512) (d : Fin 1024), y = ix3 u p d := ⟨y 0, y 1, y 2, eq_ix3 y⟩
    have hu : u = 0 := Subsingleton.elim _ _
    subst hu
    show (cfg0.win 5).cut (grid0.coords t) ((dats m 0 c).after 5 t) (ix3 (0 : Fin 1) p d) = _
    rw [after5]
    show (outsAt m c t.val t.isLt).1 (ix3 (0 : Fin 1) p d) = _
    rw [H t h3 p d, View.read_apply]
    show _ = spec m c (((cfg0.win 5).blk t).view.emb (ix3 (0 : Fin 1) p d : S1x512x1024.Idx))
    rw [out_emb]
    exact (Cert.Attn.attend_rowOf _ _ _ _ (batchOf t) (qtileOf t) p d).symm
  exact funext key

/-- The result array after the run is the specification of the argument arrays. -/
theorem result_array (c : Dev nD)
    (H : ∀ t : Fin cfg0.N, t.val % 4 = 3 → ∀ (p : Fin 512) (d : Fin 1024),
      (outsAt m c t.val t.isLt).1 (ix3 (0 : Fin 1) p d)
        = Cert.Attn.attendAt (m ((c : Thread nD τ).loc main_arg0) : S4x2048x1024.Idx → Elt Ideal .f32)
            (m ((c : Thread nD τ).loc main_arg1) : S1024.Idx → Elt Ideal .f32)
            (m ((c : Thread nD τ).loc main_arg2) : S1024.Idx → Elt Ideal .f32)
            (m ((c : Thread nD τ).loc main_arg3) : S1024.Idx → Elt Ideal .f32) (batchOf t) (rowOf (qtileOf t) p) d) :
    (dats m 0 c).arrAt 5 cfg0.N = spec m c :=
  (dats m 0 c).arrAt_eq_of_cover 5 (spec m c) (fun t hf => flushed_eq m c H t hf) out_cover

end Cert.KernelIdeal.AttnBlk

end
-- ==== Proof.AttnClaim.lean ====
/-
  The two idealized programs compute one function: the kernel's result array, accumulated tile by tile, and the
  reference's, computed whole, are both the attended values — for inputs that are finite, which is what the
  reference's way of taking signs needs.
-/
import proofs.«105131_j59863254172674_2_alg».proof.Defs
import proofs.«105131_j59863254172674_2_alg».proof.Proof.Gen.KernelIdeal
import proofs.«105131_j59863254172674_2_alg».proof.Proof.Gen.ReferenceIdeal
import proofs.«105131_j59863254172674_2_alg».proof.Proof.Gen.ReferenceIdeal.Run
import proofs.«105131_j59863254172674_2_alg».proof.Proof.Gen.ReferenceIdeal.Read
import proofs.«105131_j59863254172674_2_alg».proof.Proof.Gen.Pre_finite_inputs
import proofs.«105131_j59863254172674_2_alg».proof.Proof.IdealFrame.Frame
import proofs.«105131_j59863254172674_2_alg».proof.Proof.AttnReference
import proofs.«105131_j59863254172674_2_alg».proof.Proof.AttnFinite
import proofs.«105131_j59863254172674_2_alg».proof.Proof.AttnResult

set_option maxRecDepth 16384

noncomputable section

namespace Cert.Proof

open Idealize.ShloMosaic Idealize.ShloMosaic.TcCoe Idealize.ShloMosaic.ValueIdx Idealize.SL.Sem
open Cert.KernelIdeal Cert.KernelIdeal.Attn Cert.KernelIdeal.AttnBlk

/-- Given what the output tile holds when it is written back — the attended values of its rows —, the kernel's and
    the reference's results are equal. -/
theorem algebraic_of
    (H : ∀ (m : (ℓ : Loc nD τ sig) → Buf (Elt Ideal) ℓ) (c : Dev nD) (t : Fin cfg0.N), t.val % 4 = 3 → ∀ (p : Fin 512) (d : Fin 1024),
      (outsAt m c t.val t.isLt).1 (ix3 (0 : Fin 1) p d)
        = Cert.Attn.attendAt (m ((c : Thread nD τ).loc main_arg0) : S4x2048x1024.Idx → Elt Ideal .f32)
            (m ((c : Thread nD τ).loc main_arg1) : S1024.Idx → Elt Ideal .f32)
            (m ((c : Thread nD τ).loc main_arg2) : S1024.Idx → Elt Ideal .f32)
            (m ((c : Thread nD τ).loc main_arg3) : S1024.Idx → Elt Ideal .f32) (batchOf t) (Cert.Attn.rowOf (qtileOf t) p) d) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  haveI : Cert.Pre_finite_inputs.Facts := Cert.Pre_finite_inputs.Gen.facts
  refine ⟨fun c => spec m c, ?_, ?_⟩
  · refine (θ_run Cert.KernelIdeal.defs _ _).mono (fun r h c => ⟨((h c).1).trans ?_, (h c).2⟩) (Cert.KernelIdeal.Attn.run_result (F := Ideal) m ρ)
    exact result_array m c (H m c)
  · refine (θ_run Cert.ReferenceIdeal.defs _ _).mono (fun _ h c => ⟨?_, (h c).2⟩) (Cert.ReferenceIdeal.Value.run (F := Ideal) m' ρ')
    obtain ⟨hx, hq, hk, hv⟩ := Cert.Attn.real_of_pre _ _ _ _ (hpre c)
    rw [(h c).1, Cert.ReferenceIdeal.Read.val_main_v39_eq, (hagree c).1, (hagree c).2.1, (hagree c).2.2.1, (hagree c).2.2.2]
    exact Cert.Attn.reference_eq_attend _ _ _ _ hx hq hk hv

end Cert.Proof

end
-- ==== Proof.lean ====
/-
  The claim: the causal binary-attention kernel against its reference.

  The kernel tiles queries and keys by 512 rows. For a query tile it keeps the signs of the queries in a scratch
  buffer, and for each key tile not past the query tile it adds to the output tile the weights — the logistic of
  the scaled sign-agreement scores, zero above the diagonal — times the values. The reference computes the whole
  score matrix, masks it, and contracts with the values in one product. At the ideal instance both are, index by
  index, the same sum over keys: the masked weights vanish above the diagonal, so the key tiles past the query tile
  contribute nothing, and a sum over 2048 keys is the sum over four tiles of 512. The reference takes signs through
  (sign y - y) + y, which is sign y exactly when y is finite: that is where the finiteness of the inputs is used.
  The scale 1/32 followed by the slope 4 is the kernel's 1/8, all three dyadic.

  The frames: the kernel's two input windows read the same array, whose share is halved between them at the launch;
  the body is run case by case (key tile 0; a later key tile not past the query tile; a key tile past it), the query
  signs and the accumulating output tile carried from point to point.
-/
import proofs.«105131_j59863254172674_2_alg».proof.Defs
import proofs.«105131_j59863254172674_2_alg».proof.Proof.Gen.Kernel
import proofs.«105131_j59863254172674_2_alg».proof.Proof.Gen.KernelIdeal
import proofs.«105131_j59863254172674_2_alg».proof.Proof.Gen.ReferenceIdeal
import proofs.«105131_j59863254172674_2_alg».proof.Proof.Gen.ReferenceIdeal.Run
import proofs.«105131_j59863254172674_2_alg».proof.Proof.Gen.ReferenceIdeal.Read
import proofs.«105131_j59863254172674_2_alg».proof.Proof.Gen.Pre_finite_inputs
import proofs.«105131_j59863254172674_2_alg».proof.Proof.WordFrame.Frame
import proofs.«105131_j59863254172674_2_alg».proof.Proof.IdealFrame.Frame
import proofs.«105131_j59863254172674_2_alg».proof.Proof.IdealFrame.Accumulate
import proofs.«105131_j59863254172674_2_alg».proof.Proof.AttnBlocks
import proofs.«105131_j59863254172674_2_alg».proof.Proof.AttnClaim
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_word : Cert.frame_Kernel (hKernel := Cert.Kernel.Gen.facts) (hPre_finite_inputs := Cert.Pre_finite_inputs.Gen.facts) :=
  fun m ρ _ => Cert.Kernel.Attn.frame m ρ

/-- So does its idealization. -/
theorem frame_ideal : Cert.frame_KernelIdeal (hKernelIdeal := Cert.KernelIdeal.Gen.facts) (hPre_finite_inputs := Cert.Pre_finite_inputs.Gen.facts) :=
  fun m ρ _ => Cert.KernelIdeal.Attn.frame m ρ

/-- The reference is host operations only: its run, with the result dropped. -/
theorem frame_ref : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The two places where the kernel builds ±1 from a sign bit: the idealization reads them as a comparison with zero. -/
theorem preserves : Cert.preserves_Kernel_KernelIdeal :=
  ⟨IdealRules.sign_bit.statement Cert.KernelIdeal.S512x1024 .f32, IdealRules.sign_bit.statement Cert.KernelIdeal.S512x1024 .f32⟩

/-- The idealized kernel and the idealized reference end with equal results: when an output tile is written back it
    holds, row by row, the attended values — the sum over the key tiles up to the query tile of weights times values,
    which is the sum over all keys since the weights above the diagonal vanish. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) :=
  algebraic_of fun m c t h3 p d =>
    Cert.KernelIdeal.AttnAcc.accumulate_last m c
      (m ((c : Thread Cert.KernelIdeal.nD Cert.KernelIdeal.τ).loc Cert.KernelIdeal.main_arg0) : Cert.KernelIdeal.S4x2048x1024.Idx → Elt Ideal .f32)
      (m ((c : Thread Cert.KernelIdeal.nD Cert.KernelIdeal.τ).loc Cert.KernelIdeal.main_arg1) : Cert.KernelIdeal.S1024.Idx → Elt Ideal .f32)
      (m ((c : Thread Cert.KernelIdeal.nD Cert.KernelIdeal.τ).loc Cert.KernelIdeal.main_arg2) : Cert.KernelIdeal.S1024.Idx → Elt Ideal .f32)
      (m ((c : Thread Cert.KernelIdeal.nD Cert.KernelIdeal.τ).loc Cert.KernelIdeal.main_arg3) : Cert.KernelIdeal.S1024.Idx → Elt Ideal .f32)
      Cert.KernelIdeal.AttnBlk.batchOf Cert.KernelIdeal.AttnBlk.qtileOf Cert.KernelIdeal.AttnBlk.kfetchOf
      (fun _ => rfl) (fun _ => rfl) (fun _ => rfl)
      (Cert.KernelIdeal.AttnBlk.query_block m c) (Cert.KernelIdeal.AttnBlk.key_block m c)
      (Cert.KernelIdeal.AttnBlk.signq_block m c) (Cert.KernelIdeal.AttnBlk.signk_block m c) (Cert.KernelIdeal.AttnBlk.signv_block m c)
      t h3 p d

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
